-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S512x256 : Shape := ⟨2, ![512, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S16384x256 .f32) (main_arg1 : FVec F S512x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S16384x256 : Shape := ⟨2, ![16384, 256]⟩
abbrev S512x256 : Shape := ⟨2, ![512, 256]⟩
abbrev S16384x512 : Shape := ⟨2, ![16384, 512]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S512x256, .f32⟩
  | .hbm, ⟨2, _⟩ => ⟨S16384x512, .f32⟩
  | .hbm, ⟨3, _⟩ => ⟨S8x512, .f32⟩
  | .hbm, ⟨4, _⟩ => ⟨S8x512, .f32⟩
  | .hbm, ⟨5, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x512, .f32⟩
  | .local _ .vmem, ⟨4, _⟩ => ⟨S512x512, .f32⟩
  | .local _ .vmem, ⟨5, _⟩ => ⟨S8x512, .f32⟩
  | .local _ .vmem, ⟨6, _⟩ => ⟨S8x512, .f32⟩
  | .local _ .vmem, ⟨7, _⟩ => ⟨S512x512, .f32⟩
  | .local _ .vmem, ⟨8, _⟩ => ⟨S512x512, .f32⟩
  | .local _ .vmem, ⟨9, _⟩ => ⟨S8x512, .f32⟩
  | .local _ .vmem, ⟨10, _⟩ => ⟨S8x512, .f32⟩
  | .local _ .vmem, ⟨11, _⟩ => ⟨S512x512, .f32⟩
  | .local _ .vmem, ⟨12, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_12 : BitVec 32 := 0#32
  let v30 : BitVec 1 := Scalar.cmpi .ne v29 c0_i32_12
  v30

def k0_cond2 (i : grid0.Coords) : BitVec 1 :=
  let arg0 : BitVec 32 := BitVec.ofNat 32 (i 0).val
  let c0_i32_13 : BitVec 32 := 0#32
  let v31 : BitVec 1 := Scalar.cmpi .sgt arg0 c0_i32_13
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [0] S512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  shapeCasts_S512x512_S512x512 : S512x512.ShapeCasts S512x512
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S8x512.size a
  hwx1_1 : ∀ i : grid1.Coords, EltTy.bits .f32 = 32 ∨ (Rect.block (s := S8x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x512.size a
  hwx1_2 : ∀ i : grid1.Coords, EltTy.bits .f32 = 32 ∨ (Rect.block (s := S8x512) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S16384x512.size a
  hwx1_3 : ∀ i : grid1.Coords, EltTy.bits .f32 = 32 ∨ (Rect.block (s := S16384x512) S512x512.size (cc1_transform_3 i) (hinb1_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_v0_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S8x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x256 : Shape := ⟨2, ![16384, 256]⟩
abbrev S512x256 : Shape := ⟨2, ![512, 256]⟩
abbrev S_ : Shape := ⟨0, ![]⟩
abbrev S16384 : Shape := ⟨1, ![16384]⟩
abbrev S16384x1 : Shape := ⟨2, ![16384, 1]⟩
abbrev S512 : Shape := ⟨1, ![512]⟩
abbrev S1x512 : Shape := ⟨2, ![1, 512]⟩
abbrev S256x512 : Shape := ⟨2, ![256, 512]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S512x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S256x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S16384x512, .f32⟩
  | .hbm, ⟨42, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S512x256_S512_d1 : S512x256.ReducesTo [1] S512
  bcast_S512_S1x512_1 : S512.BroadcastsInDim S1x512 (![1] : Fin 1 → Fin S1x512.rank)
  transposes_S512x256_S256x512_1_0 : S512x256.Transposes [1, 0] S256x512
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  bcast_S1x512_S16384x512_0_1 : S1x512.BroadcastsInDim S16384x512 (![0, 1] : Fin 2 → Fin S16384x512.rank)
  reducesTo_S16384x512_S512_d0 : S16384x512.ReducesTo [0] S512
  bcast_S_S512 : S_.BroadcastsInDim S512 (![] : Fin 0 → Fin S512.rank)
  dot_S16384x256_S256x512_S16384x512_1_0_0_1_n_n_wf : DotDims.WF S16384x256 S256x512 S16384x512 [1] [0] [0] [1] [] []

variable [Facts₀]

def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf

class Facts : Prop extends Facts₀ where

variable [Facts]
-- ==== Proof.KBitsR0.lean ====
/-
  The scores kernel (the first of the program's two kernel regions), at any float instance: what its body leaves in
  each window's staging buffer at each grid point, as pure terms of the windows' blocks, and the proof that the body,
  run from those buffers, leaves exactly that. Windows 3 and 4 (the running column maximum and column sum) are
  carried from point to point: their contents after point n are defined by recursion on n.
-/
import proofs.«146708_g52493090291789_cont_8to1_c_1103_2_alg».proof.Proof.Gen.Kernel.Launch
import proofs.«146708_g52493090291789_cont_8to1_c_1103_2_alg».proof.Proof.Gen.Kernel.Skeleton
import proofs.«146708_g52493090291789_cont_8to1_c_1103_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! # Region 0: the scores kernel, at the contents `V` the region is entered from

At grid point `t` the body reads rows 512t … 512t+511 of the inputs (window 0) and all the samples (window 1), stores the
tile of scores (window 2, written back at every point), and keeps in windows 3 and 4 — one block for the whole grid,
written back after the last point only — the running column maximum and the running rescaled column sum of
exponentials: set from the tile at the first point, merged with the tile at every later point. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the inputs are in the staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The samples, fetched once, are in their staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## Whole-buffer accesses -/

theorem off2_zero : (![0, 0] : Fin 2 → Nat) = fun _ => 0 := funext fun a => by match a with | ⟨0, _⟩ => rfl | ⟨1, _⟩ => rfl

/-- A load through the whole-buffer rectangle of a whole memref holding `X` reads `X`. -/
theorem readAt_whole {S : Shape} {e : EltTy} {sp : Space} (M : Memref sig .tc sp S e) (hM : M.IsWhole) {off : Fin S.rank → Nat} (hz : off = fun _ => 0)
    (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero hz]

/-- One store through the whole-buffer rectangle leaves its payload, whatever was there. -/
theorem read_writes_whole {S : Shape} {e : EltTy} {sp : Space} (v : View sig .tc sp S e) (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, by
    subst hz; show y ∈ (Rect.whole S).set; rw [Rect.set_whole]; exact Finset.mem_univ y⟩), View.canon_unit_zero hz]

/-! ## The body's two cases -/

/-- The conditions in closed form over the grid: the first branch is taken at the first point only, the second at
    every later point. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- At every grid coordinate one of the two branches stores windows 3 and 4: they are never idle. -/
theorem live_aux : ∀ n : Fin 32, (!(Scalar.cmpi .ne (Scalar.extui (Scalar.cmpi .eq (BitVec.ofNat 32 n.val) 0#32)) 0#32 == 1#1)
    && !(Scalar.cmpi .ne (Scalar.extui (Scalar.cmpi .sgt (BitVec.ofNat 32 n.val) 0#32)) 0#32 == 1#1)) = false := by decide +kernel
theorem hlive3 (i : grid0.Coords) : cfg0.idle 3 i = false := live_aux (i 0)
theorem hlive4 (i : grid0.Coords) : cfg0.idle 4 i = false := live_aux (i 0)

set_option maxHeartbeats 1000000 in
/-- The first point: the tile of scores, and the running maximum and sum set from the tile's. -/
theorem sound_kernel0_A (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x512 .f32) (harg3 : arg3.IsWhole) (arg4 : Memref sig .tc .vmem S8x512 .f32) (harg4 : arg4.IsWhole)
    (arg5 : Memref sig .tc .vmem S8x512 .f32) (harg5 : arg5.IsWhole)
    (hc1 : k0_cond1 i = 1#1) (hc2 : ¬ k0_cond2 i = 1#1)
    (x0 : Vec F S512x256 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay4 x0 x1)
            ∗ owns (c : Thread nD τ) arg5 fullShare (k0_pay5 x0 x1)) -∗ K ⟨⟩))
      ⊢ wp frame (wpE (defs₀ (F := F)) Variants.none c none) E (cc0__scores_kernel i arg1 harg1 arg2 harg2 arg3 harg3 arg4 harg4 arg5 harg5) K := by
  simp only [cc0__scores_kernel_eq_skeleton]; unfold cc0__scores_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  rw [readAt_whole arg1 harg1 off2_zero, readAt_whole arg2 harg2 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact read_writes_whole _ _ off2_zero _ _
  isplitl [H3]
  · iexists _; isplitr
    swap; · iexact H3
    ipureintro; exact read_writes_whole _ _ off2_zero _ _
  iexists _; isplitr
  swap; · iexact H4
  ipureintro; exact read_writes_whole _ _ off2_zero _ _

set_option maxHeartbeats 1000000 in
/-- A later point: the tile of scores, and the running maximum and sum merged with the tile's. -/
theorem sound_kernel0_B (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x512 .f32) (harg3 : arg3.IsWhole) (arg4 : Memref sig .tc .vmem S8x512 .f32) (harg4 : arg4.IsWhole)
    (arg5 : Memref sig .tc .vmem S8x512 .f32) (harg5 : arg5.IsWhole)
    (hc1 : ¬ k0_cond1 i = 1#1) (hc2 : k0_cond2 i = 1#1)
    (x0 : Vec F S512x256 .f32) (x1 : Vec F S512x256 .f32) (xo3 : Vec F S8x512 .f32) (xo4 : Vec F S8x512 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3 ∗ owns (c : Thread nD τ) arg5 fullShare xo4
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay8 x0 x1 xo3)
            ∗ owns (c : Thread nD τ) arg5 fullShare (k0_pay9 x0 x1 xo3 xo4)) -∗ K ⟨⟩))
      ⊢ wp frame (wpE (defs₀ (F := F)) Variants.none c none) E (cc0__scores_kernel i arg1 harg1 arg2 harg2 arg3 harg3 arg4 harg4 arg5 harg5) K := by
  simp only [cc0__scores_kernel_eq_skeleton]; unfold cc0__scores_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  rw [readAt_whole arg1 harg1 off2_zero, readAt_whole arg2 harg2 off2_zero, readAt_whole arg4 harg4 off2_zero, readAt_whole arg5 harg5 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact read_writes_whole _ _ off2_zero _ _
  isplitl [H3]
  · iexists _; isplitr
    swap; · iexact H3
    ipureintro; exact read_writes_whole _ _ off2_zero _ _
  iexists _; isplitr
  swap; · iexact H4
  ipureintro; exact read_writes_whole _ _ off2_zero _ _

section Region0Data

variable (V : (c : Dev nD) → (b : Ref sig .tc) → Buf (Elt F) ((c : Thread nD τ).loc b))

/-! ## What windows 3 and 4 hold after each point -/

/-- The running maximum (first component) and the running sum (second) after the body at point `n`: set from the
    tile at the first point, merged with the tile at every later one. -/
def outsAt0 (c : Dev nD) : (n : ℕ) → n < cfg0.N → Vec F S8x512 .f32 × Vec F S8x512 .f32
  | 0, hn => (k0_pay4 (iblk0 V c 0 ⟨0, hn⟩) (iblk0 V c 1 ⟨0, hn⟩), k0_pay5 (iblk0 V c 0 ⟨0, hn⟩) (iblk0 V c 1 ⟨0, hn⟩))
  | n + 1, hn =>
    (k0_pay8 (iblk0 V c 0 ⟨n + 1, hn⟩) (iblk0 V c 1 ⟨n + 1, hn⟩) (outsAt0 c n (Nat.lt_of_succ_lt hn)).1,
     k0_pay9 (iblk0 V c 0 ⟨n + 1, hn⟩) (iblk0 V c 1 ⟨n + 1, hn⟩) (outsAt0 c n (Nat.lt_of_succ_lt hn)).1 (outsAt0 c n (Nat.lt_of_succ_lt hn)).2)

theorem outsAt0_zero (c : Dev nD) (t : Fin cfg0.N) (h0 : t.val = 0) :
    outsAt0 V c t.val t.isLt = (k0_pay4 (iblk0 V c 0 t) (iblk0 V c 1 t), k0_pay5 (iblk0 V c 0 t) (iblk0 V c 1 t)) := by
  obtain ⟨n, hn⟩ := t
  cases n with
  | zero => rfl
  | succ n => exact absurd h0 (Nat.succ_ne_zero n)

theorem outsAt0_succ (c : Dev nD) (t : Fin cfg0.N) (h0 : t.val ≠ 0) :
    outsAt0 V c t.val t.isLt =
      (k0_pay8 (iblk0 V c 0 t) (iblk0 V c 1 t) (outsAt0 V c (t.val - 1) (Nat.lt_of_le_of_lt (Nat.sub_le _ _) t.isLt)).1,
       k0_pay9 (iblk0 V c 0 t) (iblk0 V c 1 t) (outsAt0 V c (t.val - 1) (Nat.lt_of_le_of_lt (Nat.sub_le _ _) t.isLt)).1
         (outsAt0 V c (t.val - 1) (Nat.lt_of_le_of_lt (Nat.sub_le _ _) t.isLt)).2) := by
  obtain ⟨n, hn⟩ := t
  cases n with
  | zero => exact absurd rfl h0
  | succ n => rfl

/-! ## The pipeline's proof data -/

/-- After the body at point `t`: the inputs' buffers at their blocks, the scores' buffer at the tile of scores, windows 3
    and 4 at the running maximum and sum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point windows 3 and 4 hold what the body left at the point before: their one block is written back
    only after the last point. -/
theorem before0_3 (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 3 rfl t h0 (Bool.eq_false_iff.mpr fun h => by have := (flush0_3 _).mp h; dsimp only at this; omega)
    hlive3 (fun _ _ => rfl)]
  dsimp only [dat0]
theorem before0_4 (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 4 rfl t h0 (Bool.eq_false_iff.mpr fun h => by have := (flush0_4 _).mp h; dsimp only at this; omega)
    hlive4 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_zero V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond1 t).mpr h0) (fun h => (hcond2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_succ V c t h0]
    simp only [before0_3 V c t h0, before0_4 V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond1 t).mp h)) ((hcond2 t).mpr h0)
      (iblk0 V c 0 t) (iblk0 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  have h3 : cfg0.idle 3 (cfg0.grid.coords t) = false := hlive3 _
  have h4 : cfg0.idle 4 (cfg0.grid.coords t) = false := hlive4 _
  rw [h3]
  try rw [h4]
  exact sound_body0 V c t

end Region0Data

end Cert.Kernel.Hand
end
-- ==== Proof.KBitsR1.lean ====
/-
  The normalising kernel (the second of the program's two kernel regions), at any float instance: each output tile is
  one pure term of the tile of scores and of the two one-block windows holding the column maximum and column sum.
-/
import proofs.«146708_g52493090291789_cont_8to1_c_1103_2_alg».proof.Proof.KBitsR0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! # Region 1: the normalising kernel, at the contents `V` the region is entered from

At grid point `t` the body reads the tile of scores (window 0) and the column maximum and column sum (windows 1 and 2,
one block each, fetched once) and stores exp (score − maximum) / sum (window 3, written back at every point). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

set_option maxHeartbeats 1000000 in
/-- The body: the output tile is the payload of the three input blocks. -/
theorem sound_kernel1 (c : Dev nD) (E : Set ℕ) (i : grid1.Coords)
    (arg1 : Memref sig .tc .vmem S512x512 .f32) (harg1 : arg1.IsWhole) (arg2 : Memref sig .tc .vmem S8x512 .f32) (harg2 : arg2.IsWhole)
    (arg3 : Memref sig .tc .vmem S8x512 .f32) (harg3 : arg3.IsWhole) (arg4 : Memref sig .tc .vmem S512x512 .f32) (harg4 : arg4.IsWhole)
    (x0 : Vec F S512x512 .f32) (x1 : Vec F S8x512 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x1 x2 x0)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  rw [readAt_whole arg1 harg1 off2_zero, readAt_whole arg2 harg2 off2_zero, readAt_whole arg3 harg3 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro; exact read_writes_whole _ _ off2_zero _ _

section Region1Data

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 1 t) (iblk1 V c 2 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1Data

end Cert.Kernel.Hand
end
-- ==== Proof.KBitsRun.lean ====
/-
  The whole program, at any float instance: @main is the scores kernel followed by the normalising kernel. The buffer
  contents at the boundaries are named (as launched; after the first region; after the second), each region is entered
  from one and left at the next, and the run ends with the result array holding what the second region's write-backs
  leave and the argument arrays holding what they were launched with.
-/
import proofs.«146708_g52493090291789_cont_8to1_c_1103_2_alg».proof.Proof.KBitsR1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! # The run: @main is the two regions, one after the other

## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its three output arrays at what its write-backs leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: its output array at what its write-backs leave, everything else as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- The two argument arrays are inputs of the first region and are bypassed by the second: they end as launched. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- The result array is the second region's output. -/
theorem W2_main_v1 (c : Dev nD) : W2 m ρ c (Proc.devRef .tc main_v1) = (dat1 (V1 m ρ) c).arrAt 3 cfg1.N := W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from `m` terminates, nothing faulting, with the result array at what the second
    region's write-backs leave and both argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c)⟩)

end Cert.Kernel.Hand
end
-- ==== Proof.KIdealR0.lean ====
/-
  The scores kernel (the first of the program's two kernel regions), at any float instance: what its body leaves in
  each window's staging buffer at each grid point, as pure terms of the windows' blocks, and the proof that the body,
  run from those buffers, leaves exactly that. Windows 3 and 4 (the running column maximum and column sum) are
  carried from point to point: their contents after point n are defined by recursion on n.
-/
import proofs.«146708_g52493090291789_cont_8to1_c_1103_2_alg».proof.Proof.Gen.KernelIdeal.Launch
import proofs.«146708_g52493090291789_cont_8to1_c_1103_2_alg».proof.Proof.Gen.KernelIdeal.Skeleton
import proofs.«146708_g52493090291789_cont_8to1_c_1103_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! # Region 0: the scores kernel, at the contents `V` the region is entered from

At grid point `t` the body reads rows 512t … 512t+511 of the inputs (window 0) and all the samples (window 1), stores the
tile of scores (window 2, written back at every point), and keeps in windows 3 and 4 — one block for the whole grid,
written back after the last point only — the running column maximum and the running rescaled column sum of
exponentials: set from the tile at the first point, merged with the tile at every later point. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the inputs are in the staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The samples, fetched once, are in their staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## Whole-buffer accesses -/

theorem off2_zero : (![0, 0] : Fin 2 → Nat) = fun _ => 0 := funext fun a => by match a with | ⟨0, _⟩ => rfl | ⟨1, _⟩ => rfl

/-- A load through the whole-buffer rectangle of a whole memref holding `X` reads `X`. -/
theorem readAt_whole {S : Shape} {e : EltTy} {sp : Space} (M : Memref sig .tc sp S e) (hM : M.IsWhole) {off : Fin S.rank → Nat} (hz : off = fun _ => 0)
    (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero hz]

/-- One store through the whole-buffer rectangle leaves its payload, whatever was there. -/
theorem read_writes_whole {S : Shape} {e : EltTy} {sp : Space} (v : View sig .tc sp S e) (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, by
    subst hz; show y ∈ (Rect.whole S).set; rw [Rect.set_whole]; exact Finset.mem_univ y⟩), View.canon_unit_zero hz]

/-! ## The body's two cases -/

/-- The conditions in closed form over the grid: the first branch is taken at the first point only, the second at
    every later point. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- At every grid coordinate one of the two branches stores windows 3 and 4: they are never idle. -/
theorem live_aux : ∀ n : Fin 32, (!(Scalar.cmpi .ne (Scalar.extui (Scalar.cmpi .eq (BitVec.ofNat 32 n.val) 0#32)) 0#32 == 1#1)
    && !(Scalar.cmpi .ne (Scalar.extui (Scalar.cmpi .sgt (BitVec.ofNat 32 n.val) 0#32)) 0#32 == 1#1)) = false := by decide +kernel
theorem hlive3 (i : grid0.Coords) : cfg0.idle 3 i = false := live_aux (i 0)
theorem hlive4 (i : grid0.Coords) : cfg0.idle 4 i = false := live_aux (i 0)

set_option maxHeartbeats 1000000 in
/-- The first point: the tile of scores, and the running maximum and sum set from the tile's. -/
theorem sound_kernel0_A (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x512 .f32) (harg3 : arg3.IsWhole) (arg4 : Memref sig .tc .vmem S8x512 .f32) (harg4 : arg4.IsWhole)
    (arg5 : Memref sig .tc .vmem S8x512 .f32) (harg5 : arg5.IsWhole)
    (hc1 : k0_cond1 i = 1#1) (hc2 : ¬ k0_cond2 i = 1#1)
    (x0 : Vec F S512x256 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay4 x0 x1)
            ∗ owns (c : Thread nD τ) arg5 fullShare (k0_pay5 x0 x1)) -∗ K ⟨⟩))
      ⊢ wp frame (wpE (defs₀ (F := F)) Variants.none c none) E (cc0__scores_kernel i arg1 harg1 arg2 harg2 arg3 harg3 arg4 harg4 arg5 harg5) K := by
  simp only [cc0__scores_kernel_eq_skeleton]; unfold cc0__scores_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc1 | exact hc2)
  sl_step
  rw [readAt_whole arg1 harg1 off2_zero, readAt_whole arg2 harg2 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact read_writes_whole _ _ off2_zero _ _
  isplitl [H3]
  · iexists _; isplitr
    swap; · iexact H3
    ipureintro; exact read_writes_whole _ _ off2_zero _ _
  iexists _; isplitr
  swap; · iexact H4
  ipureintro; exact read_writes_whole _ _ off2_zero _ _

set_option maxHeartbeats 1000000 in
/-- A later point: the tile of scores, and the running maximum and sum merged with the tile's. -/
theorem sound_kernel0_B (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S512x512 .f32) (harg3 : arg3.IsWhole) (arg4 : Memref sig .tc .vmem S8x512 .f32) (harg4 : arg4.IsWhole)
    (arg5 : Memref sig .tc .vmem S8x512 .f32) (harg5 : arg5.IsWhole)
    (hc1 : ¬ k0_cond1 i = 1#1) (hc2 : k0_cond2 i = 1#1)
    (x0 : Vec F S512x256 .f32) (x1 : Vec F S512x256 .f32) (xo3 : Vec F S8x512 .f32) (xo4 : Vec F S8x512 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo3 ∗ owns (c : Thread nD τ) arg5 fullShare xo4
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay8 x0 x1 xo3)
            ∗ owns (c : Thread nD τ) arg5 fullShare (k0_pay9 x0 x1 xo3 xo4)) -∗ K ⟨⟩))
      ⊢ wp frame (wpE (defs₀ (F := F)) Variants.none c none) E (cc0__scores_kernel i arg1 harg1 arg2 harg2 arg3 harg3 arg4 harg4 arg5 harg5) K := by
  simp only [cc0__scores_kernel_eq_skeleton]; unfold cc0__scores_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1
  obtain rfl := harg4.eq_unread hf3; obtain rfl := harg5.eq_unread hf4
  sl_exec (disch := first | exact hc1 | exact hc2)
  sl_step
  rw [readAt_whole arg1 harg1 off2_zero, readAt_whole arg2 harg2 off2_zero, readAt_whole arg4 harg4 off2_zero, readAt_whole arg5 harg5 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; exact read_writes_whole _ _ off2_zero _ _
  isplitl [H3]
  · iexists _; isplitr
    swap; · iexact H3
    ipureintro; exact read_writes_whole _ _ off2_zero _ _
  iexists _; isplitr
  swap; · iexact H4
  ipureintro; exact read_writes_whole _ _ off2_zero _ _

section Region0Data

variable (V : (c : Dev nD) → (b : Ref sig .tc) → Buf (Elt F) ((c : Thread nD τ).loc b))

/-! ## What windows 3 and 4 hold after each point -/

/-- The running maximum (first component) and the running sum (second) after the body at point `n`: set from the
    tile at the first point, merged with the tile at every later one. -/
def outsAt0 (c : Dev nD) : (n : ℕ) → n < cfg0.N → Vec F S8x512 .f32 × Vec F S8x512 .f32
  | 0, hn => (k0_pay4 (iblk0 V c 0 ⟨0, hn⟩) (iblk0 V c 1 ⟨0, hn⟩), k0_pay5 (iblk0 V c 0 ⟨0, hn⟩) (iblk0 V c 1 ⟨0, hn⟩))
  | n + 1, hn =>
    (k0_pay8 (iblk0 V c 0 ⟨n + 1, hn⟩) (iblk0 V c 1 ⟨n + 1, hn⟩) (outsAt0 c n (Nat.lt_of_succ_lt hn)).1,
     k0_pay9 (iblk0 V c 0 ⟨n + 1, hn⟩) (iblk0 V c 1 ⟨n + 1, hn⟩) (outsAt0 c n (Nat.lt_of_succ_lt hn)).1 (outsAt0 c n (Nat.lt_of_succ_lt hn)).2)

theorem outsAt0_zero (c : Dev nD) (t : Fin cfg0.N) (h0 : t.val = 0) :
    outsAt0 V c t.val t.isLt = (k0_pay4 (iblk0 V c 0 t) (iblk0 V c 1 t), k0_pay5 (iblk0 V c 0 t) (iblk0 V c 1 t)) := by
  obtain ⟨n, hn⟩ := t
  cases n with
  | zero => rfl
  | succ n => exact absurd h0 (Nat.succ_ne_zero n)

theorem outsAt0_succ (c : Dev nD) (t : Fin cfg0.N) (h0 : t.val ≠ 0) :
    outsAt0 V c t.val t.isLt =
      (k0_pay8 (iblk0 V c 0 t) (iblk0 V c 1 t) (outsAt0 V c (t.val - 1) (Nat.lt_of_le_of_lt (Nat.sub_le _ _) t.isLt)).1,
       k0_pay9 (iblk0 V c 0 t) (iblk0 V c 1 t) (outsAt0 V c (t.val - 1) (Nat.lt_of_le_of_lt (Nat.sub_le _ _) t.isLt)).1
         (outsAt0 V c (t.val - 1) (Nat.lt_of_le_of_lt (Nat.sub_le _ _) t.isLt)).2) := by
  obtain ⟨n, hn⟩ := t
  cases n with
  | zero => exact absurd rfl h0
  | succ n => rfl

/-! ## The pipeline's proof data -/

/-- After the body at point `t`: the inputs' buffers at their blocks, the scores' buffer at the tile of scores, windows 3
    and 4 at the running maximum and sum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point windows 3 and 4 hold what the body left at the point before: their one block is written back
    only after the last point. -/
theorem before0_3 (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 3 rfl t h0 (Bool.eq_false_iff.mpr fun h => by have := (flush0_3 _).mp h; dsimp only at this; omega)
    hlive3 (fun _ _ => rfl)]
  dsimp only [dat0]
theorem before0_4 (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 4 rfl t h0 (Bool.eq_false_iff.mpr fun h => by have := (flush0_4 _).mp h; dsimp only at this; omega)
    hlive4 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_zero V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond1 t).mpr h0) (fun h => (hcond2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_succ V c t h0]
    simp only [before0_3 V c t h0, before0_4 V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond1 t).mp h)) ((hcond2 t).mpr h0)
      (iblk0 V c 0 t) (iblk0 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  have h3 : cfg0.idle 3 (cfg0.grid.coords t) = false := hlive3 _
  have h4 : cfg0.idle 4 (cfg0.grid.coords t) = false := hlive4 _
  rw [h3]
  try rw [h4]
  exact sound_body0 V c t

end Region0Data

end Cert.KernelIdeal.Hand
end
-- ==== Proof.KIdealR1.lean ====
/-
  The normalising kernel (the second of the program's two kernel regions), at any float instance: each output tile is
  one pure term of the tile of scores and of the two one-block windows holding the column maximum and column sum.
-/
import proofs.«146708_g52493090291789_cont_8to1_c_1103_2_alg».proof.Proof.KIdealR0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! # Region 1: the normalising kernel, at the contents `V` the region is entered from

At grid point `t` the body reads the tile of scores (window 0) and the column maximum and column sum (windows 1 and 2,
one block each, fetched once) and stores exp (score − maximum) / sum (window 3, written back at every point). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

set_option maxHeartbeats 1000000 in
/-- The body: the output tile is the payload of the three input blocks. -/
theorem sound_kernel1 (c : Dev nD) (E : Set ℕ) (i : grid1.Coords)
    (arg1 : Memref sig .tc .vmem S512x512 .f32) (harg1 : arg1.IsWhole) (arg2 : Memref sig .tc .vmem S8x512 .f32) (harg2 : arg2.IsWhole)
    (arg3 : Memref sig .tc .vmem S8x512 .f32) (harg3 : arg3.IsWhole) (arg4 : Memref sig .tc .vmem S512x512 .f32) (harg4 : arg4.IsWhole)
    (x0 : Vec F S512x512 .f32) (x1 : Vec F S8x512 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x1 x2 x0)) -∗ K ⟨⟩))
      ⊢ wp frame (wpE (defs₀ (F := F)) Variants.none c none) E (cc1__norm_kernel i arg1 harg1 arg2 harg2 arg3 harg3 arg4 harg4) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  rw [readAt_whole arg1 harg1 off2_zero, readAt_whole arg2 harg2 off2_zero, readAt_whole arg3 harg3 off2_zero]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro; exact read_writes_whole _ _ off2_zero _ _

section Region1Data

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (iblk1 V c 1 t) (iblk1 V c 2 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1Data

end Cert.KernelIdeal.Hand
end
-- ==== Proof.KIdealRun.lean ====
/-
  The whole program, at any float instance: @main is the scores kernel followed by the normalising kernel. The buffer
  contents at the boundaries are named (as launched; after the first region; after the second), each region is entered
  from one and left at the next, and the run ends with the result array holding what the second region's write-backs
  leave and the argument arrays holding what they were launched with.
-/
import proofs.«146708_g52493090291789_cont_8to1_c_1103_2_alg».proof.Proof.KIdealR1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! # The run: @main is the two regions, one after the other

## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its three output arrays at what its write-backs leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: its output array at what its write-backs leave, everything else as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- The two argument arrays are inputs of the first region and are bypassed by the second: they end as launched. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- The result array is the second region's output. -/
theorem W2_main_v1 (c : Dev nD) : W2 m ρ c (Proc.devRef .tc main_v1) = (dat1 (V1 m ρ) c).arrAt 3 cfg1.N := W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from `m` terminates, nothing faulting, with the result array at what the second
    region's write-backs leave and both argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c)⟩)

end Cert.KernelIdeal.Hand
end
-- ==== Proof.KIdealBlocks.lean ====
/-
  What the two regions' write-backs leave, read back (at any float instance): tile t of the scores array is the tile
  point t computed; the arrays of the running maximum and running sum hold what the body left after the last point;
  the second region reads exactly these; and where an element of an input block sits in its array.
-/
import proofs.«146708_g52493090291789_cont_8to1_c_1103_2_alg».proof.Proof.KIdealRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! # What the first region leaves, block by block, and what the second region finds -/

section Region0Finals

variable (V : (c : Dev nD) → (b : Ref sig .tc) → Buf (Elt F) ((c : Thread nD τ).loc b))

/-- Distinct grid points write distinct tiles of the scores array. -/
theorem idx_inj0_2 : ∀ t t' : Fin cfg0.N, win0_2.index t = win0_2.index t' → t = t' :=
  (by decide +kernel : ∀ t t' : Fin grid0.N, win0_2.index t = win0_2.index t' → t = t')
theorem disjoint0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj0_2 t t' h)

/-- Tile `t` of the scores array after the region is the tile of scores point `t` computed. -/
theorem blocks0_2 (c : Dev nD) (t : Fin cfg0.N) :
    ((cfg0.win 2).blk t).view.read (Elt F) ((dat0 V c).arrAt 2 cfg0.N) = k0_pay1 (iblk0 V c 0 t) (iblk0 V c 1 t) :=
  ((dat0 V c).read_blk_arrAt_eq_flushed 2 disjoint0_2 cfg0.N t t.isLt (flush0_2 t)).trans (by
    show (cfg0.win 2).cut (grid0.coords t) ((dat0 V c).after 2 t) = _
    rw [after0_2]; rfl)

/-- Windows 3 and 4 have one block, the whole array, at every point. -/
theorem idx_zero0_3 : ∀ t : Fin cfg0.N, win0_3.index t (0 : Fin 2) = 0 ∧ win0_3.index t (1 : Fin 2) = 0 :=
  (by decide +kernel : ∀ t : Fin grid0.N, _)
theorem idx_zero0_4 : ∀ t : Fin cfg0.N, win0_4.index t (0 : Fin 2) = 0 ∧ win0_4.index t (1 : Fin 2) = 0 :=
  (by decide +kernel : ∀ t : Fin grid0.N, _)

/-- Reading an [8, 512] array through that one block reads the array. -/
theorem read_whole0_3 (t : Fin cfg0.N) (G : S8x512.Idx → Elt F .f32) : ((cfg0.win 3).blk t).view.read (Elt F) G = G := by
  funext y
  show G (((cfg0.win 3).blk t).view.emb y) = G y
  refine congrArg G ?_
  obtain ⟨e0, e1⟩ := idx_zero0_3 t
  funext a; apply Fin.ext
  match a with
  | ⟨0, _⟩ => show win0_3.index t (0 : Fin 2) * 8 + 1 * (y 0).val = (y 0).val; omega
  | ⟨1, _⟩ => show win0_3.index t (1 : Fin 2) * 512 + 1 * (y 1).val = (y 1).val; omega
theorem read_whole0_4 (t : Fin cfg0.N) (G : S8x512.Idx → Elt F .f32) : ((cfg0.win 4).blk t).view.read (Elt F) G = G := by
  funext y
  show G (((cfg0.win 4).blk t).view.emb y) = G y
  refine congrArg G ?_
  obtain ⟨e0, e1⟩ := idx_zero0_4 t
  funext a; apply Fin.ext
  match a with
  | ⟨0, _⟩ => show win0_4.index t (0 : Fin 2) * 8 + 1 * (y 0).val = (y 0).val; omega
  | ⟨1, _⟩ => show win0_4.index t (1 : Fin 2) * 512 + 1 * (y 1).val = (y 1).val; omega

theorem mem_blk0_3 (t : Fin cfg0.N) (i : S8x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v0_1).slice (win0_3.rect t)).set ↔ _
  rw [View.set_slice_whole, Rect.mem_set_unit]
  exact Iff.rfl
theorem mem_blk0_4 (t : Fin cfg0.N) (i : S8x512.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v0_2).slice (win0_4.rect t)).set ↔ _
  rw [View.set_slice_whole, Rect.mem_set_unit]
  exact Iff.rfl

theorem last_lt : 31 < cfg0.N := lt_of_lt_of_eq (by decide) N_0.symm

/-- After the region the arrays of windows 3 and 4 hold what the body left after the last point. -/
theorem final0_3 (c : Dev nD) : (dat0 V c).arrAt 3 cfg0.N = (outsAt0 V c 31 last_lt).1 := by
  refine (dat0 V c).arrAt_eq_of_cover 3 _ (fun t hf => ?_) (fun i => ⟨⟨31, last_lt⟩, (flush0_3 _).mpr rfl, ?_⟩)
  · rw [read_whole0_3]
    show (cfg0.win 3).cut (grid0.coords t) ((dat0 V c).after 3 t) = _
    rw [after0_3]
    have h31 : t.val % 32 = 31 := (flush0_3 t).mp hf
    obtain ⟨n, hn⟩ := t
    have hN : n < 32 := lt_of_lt_of_eq hn N_0
    have e : n = 31 := by dsimp only at h31; omega
    subst e; rfl
  · rw [mem_blk0_3]
    obtain ⟨e0, e1⟩ := idx_zero0_3 ⟨31, last_lt⟩
    intro a
    match a with
    | ⟨0, _⟩ => show win0_3.index ⟨31, last_lt⟩ (0 : Fin 2) * 8 ≤ (i 0).val ∧ (i 0).val < win0_3.index ⟨31, last_lt⟩ (0 : Fin 2) * 8 + 8; have hi : (i 0).val < 8 := (i 0).isLt; omega
    | ⟨1, _⟩ => show win0_3.index ⟨31, last_lt⟩ (1 : Fin 2) * 512 ≤ (i 1).val ∧ (i 1).val < win0_3.index ⟨31, last_lt⟩ (1 : Fin 2) * 512 + 512; have hi : (i 1).val < 512 := (i 1).isLt; omega
theorem final0_4 (c : Dev nD) : (dat0 V c).arrAt 4 cfg0.N = (outsAt0 V c 31 last_lt).2 := by
  refine (dat0 V c).arrAt_eq_of_cover 4 _ (fun t hf => ?_) (fun i => ⟨⟨31, last_lt⟩, (flush0_4 _).mpr rfl, ?_⟩)
  · rw [read_whole0_4]
    show (cfg0.win 4).cut (grid0.coords t) ((dat0 V c).after 4 t) = _
    rw [after0_4]
    have h31 : t.val % 32 = 31 := (flush0_4 t).mp hf
    obtain ⟨n, hn⟩ := t
    have hN : n < 32 := lt_of_lt_of_eq hn N_0
    have e : n = 31 := by dsimp only at h31; omega
    subst e; rfl
  · rw [mem_blk0_4]
    obtain ⟨e0, e1⟩ := idx_zero0_4 ⟨31, last_lt⟩
    intro a
    match a with
    | ⟨0, _⟩ => show win0_4.index ⟨31, last_lt⟩ (0 : Fin 2) * 8 ≤ (i 0).val ∧ (i 0).val < win0_4.index ⟨31, last_lt⟩ (0 : Fin 2) * 8 + 8; have hi : (i 0).val < 8 := (i 0).isLt; omega
    | ⟨1, _⟩ => show win0_4.index ⟨31, last_lt⟩ (1 : Fin 2) * 512 ≤ (i 1).val ∧ (i 1).val < win0_4.index ⟨31, last_lt⟩ (1 : Fin 2) * 512 + 512; have hi : (i 1).val < 512 := (i 1).isLt; omega

end Region0Finals

/-! ## What the second region's input windows hold -/

/-- The tile of scores the second region reads at point `t` is the tile the first region wrote at point `t`. -/
theorem iblk1_0 (c : Dev nD) (t : Fin cfg1.N) :
    iblk1 (V1 m ρ) c 0 t = k0_pay1 (iblk0 (V0 m ρ) c 0 t) (iblk0 (V0 m ρ) c 1 t) := by
  unfold iblk1
  rw [show V1 m ρ c (Pipeline.arrRef spec1 0) = (dat0 (V0 m ρ) c).arrAt 2 cfg0.N from W1_arr m ρ c 2]
  exact blocks0_2 (V0 m ρ) c t

theorem idx_zero1_1 : ∀ t : Fin cfg1.N, win1_1.index t (0 : Fin 2) = 0 ∧ win1_1.index t (1 : Fin 2) = 0 :=
  (by decide +kernel : ∀ t : Fin grid1.N, _)
theorem idx_zero1_2 : ∀ t : Fin cfg1.N, win1_2.index t (0 : Fin 2) = 0 ∧ win1_2.index t (1 : Fin 2) = 0 :=
  (by decide +kernel : ∀ t : Fin grid1.N, _)

/-- The second region's windows 1 and 2 hold the final running maximum and running sum. -/
theorem iblk1_1 (c : Dev nD) (t : Fin cfg1.N) : iblk1 (V1 m ρ) c 1 t = (outsAt0 (V0 m ρ) c 31 last_lt).1 := by
  unfold iblk1
  rw [show V1 m ρ c (Pipeline.arrRef spec1 1) = (dat0 (V0 m ρ) c).arrAt 3 cfg0.N from W1_arr m ρ c 3, final0_3]
  funext y
  show (outsAt0 (V0 m ρ) c 31 last_lt).1 (((cfg1.win 1).blk t).view.emb y) = (outsAt0 (V0 m ρ) c 31 last_lt).1 y
  refine congrArg _ ?_
  obtain ⟨e0, e1⟩ := idx_zero1_1 t
  funext a; apply Fin.ext
  match a with
  | ⟨0, _⟩ => show win1_1.index t (0 : Fin 2) * 8 + 1 * (y 0).val = (y 0).val; omega
  | ⟨1, _⟩ => show win1_1.index t (1 : Fin 2) * 512 + 1 * (y 1).val = (y 1).val; omega
theorem iblk1_2 (c : Dev nD) (t : Fin cfg1.N) : iblk1 (V1 m ρ) c 2 t = (outsAt0 (V0 m ρ) c 31 last_lt).2 := by
  unfold iblk1
  rw [show V1 m ρ c (Pipeline.arrRef spec1 2) = (dat0 (V0 m ρ) c).arrAt 4 cfg0.N from W1_arr m ρ c 4, final0_4]
  funext y
  show (outsAt0 (V0 m ρ) c 31 last_lt).2 (((cfg1.win 2).blk t).view.emb y) = (outsAt0 (V0 m ρ) c 31 last_lt).2 y
  refine congrArg _ ?_
  obtain ⟨e0, e1⟩ := idx_zero1_2 t
  funext a; apply Fin.ext
  match a with
  | ⟨0, _⟩ => show win1_2.index t (0 : Fin 2) * 8 + 1 * (y 0).val = (y 0).val; omega
  | ⟨1, _⟩ => show win1_2.index t (1 : Fin 2) * 512 + 1 * (y 1).val = (y 1).val; omega

/-- What point `t` of the second region writes back. -/
theorem flushed1_3 (c : Dev nD) (t : Fin cfg1.N) :
    (dat1 (V1 m ρ) c).flushed 3 t = k1_pay1 (outsAt0 (V0 m ρ) c 31 last_lt).1 (outsAt0 (V0 m ρ) c 31 last_lt).2
      (k0_pay1 (iblk0 (V0 m ρ) c 0 t) (iblk0 (V0 m ρ) c 1 t)) := by
  show (cfg1.win 3).cut (grid1.coords t) ((dat1 (V1 m ρ) c).after 3 t) = _
  rw [after1_3, iblk1_0, iblk1_1, iblk1_2]; rfl

/-! ## The first region's input blocks, read at an index -/

theorem idx_facts0_0 : ∀ t : Fin cfg0.N, win0_0.index t (0 : Fin 2) = t.val ∧ win0_0.index t (1 : Fin 2) = 0 :=
  (by decide +kernel : ∀ t : Fin grid0.N, _)
theorem idx_facts0_1 : ∀ t : Fin cfg0.N, win0_1.index t (0 : Fin 2) = 0 ∧ win0_1.index t (1 : Fin 2) = 0 :=
  (by decide +kernel : ∀ t : Fin grid0.N, _)
theorem idx_facts1_3 : ∀ t : Fin cfg1.N, win1_3.index t (0 : Fin 2) = t.val ∧ win1_3.index t (1 : Fin 2) = 0 :=
  (by decide +kernel : ∀ t : Fin grid1.N, _)

/-- Row `p` of the inputs' block at point `t` is row 512·t + p of the inputs. -/
theorem iblk0_0_apply (c : Dev nD) (t : Fin cfg0.N) (y : S512x256.Idx) (i : S16384x256.Idx)
    (h0 : (i 0).val = 512 * t.val + (y 0).val) (h1 : (i 1).val = (y 1).val) :
    iblk0 (V0 m ρ) c 0 t y = m ((c : Thread nD τ).loc main_arg0) i := by
  show V0 m ρ c main_arg0 (((cfg0.win 0).blk t).view.emb y) = V0 m ρ c main_arg0 i
  refine congrArg _ ?_
  obtain ⟨e0, e1⟩ := idx_facts0_0 t
  funext a; apply Fin.ext
  match a with
  | ⟨0, _⟩ => show win0_0.index t (0 : Fin 2) * 512 + 1 * (y 0).val = (i 0).val; omega
  | ⟨1, _⟩ => show win0_0.index t (1 : Fin 2) * 256 + 1 * (y 1).val = (i 1).val; omega
/-- The samples' block at every point is all the samples. -/
theorem iblk0_1_apply (c : Dev nD) (t : Fin cfg0.N) (y : S512x256.Idx) :
    iblk0 (V0 m ρ) c 1 t y = m ((c : Thread nD τ).loc main_arg1) y := by
  show V0 m ρ c main_arg1 (((cfg0.win 1).blk t).view.emb y) = V0 m ρ c main_arg1 y
  refine congrArg _ ?_
  obtain ⟨e0, e1⟩ := idx_facts0_1 t
  funext a; apply Fin.ext
  match a with
  | ⟨0, _⟩ => show win0_1.index t (0 : Fin 2) * 512 + 1 * (y 0).val = (y 0).val; omega
  | ⟨1, _⟩ => show win0_1.index t (1 : Fin 2) * 256 + 1 * (y 1).val = (y 1).val; omega

theorem mem_blk1_3 (t : Fin cfg1.N) (i : S16384x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v1).slice (win1_3.rect t)).set ↔ _
  rw [View.set_slice_whole, Rect.mem_set_unit]
  exact Iff.rfl

/-- Every index of the result array lies in the block of the point its row's tile belongs to. -/
theorem cover1_3 (i : S16384x512.Idx) : ∃ t : Fin cfg1.N, (cfg1.win 3).flush t = true ∧ i ∈ ((cfg1.win 3).blk t).view.set := by
  have hi0 : (i 0).val < 16384 := (i 0).isLt
  have hi1 : (i 1).val < 512 := (i 1).isLt
  refine ⟨⟨(i 0).val / 512, lt_of_lt_of_eq (by omega) N_1.symm⟩, flush1_3 _, ?_⟩
  rw [mem_blk1_3]
  obtain ⟨e0, e1⟩ := idx_facts1_3 ⟨(i 0).val / 512, lt_of_lt_of_eq (by omega) N_1.symm⟩
  intro a
  match a with
  | ⟨0, _⟩ =>
    show win1_3.index ⟨(i 0).val / 512, _⟩ (0 : Fin 2) * 512 ≤ (i 0).val ∧ (i 0).val < win1_3.index ⟨(i 0).val / 512, _⟩ (0 : Fin 2) * 512 + 512
    dsimp only at e0; omega
  | ⟨1, _⟩ =>
    show win1_3.index ⟨(i 0).val / 512, _⟩ (1 : Fin 2) * 512 ≤ (i 1).val ∧ (i 1).val < win1_3.index ⟨(i 0).val / 512, _⟩ (1 : Fin 2) * 512 + 512
    omega

/-- The result array's element under block `t` at block coordinates `y`. -/
theorem blk1_3_emb (t : Fin cfg1.N) (y : S512x512.Idx) :
    ((((cfg1.win 3).blk t).view.emb y) 0).val = 512 * t.val + (y 0).val ∧ ((((cfg1.win 3).blk t).view.emb y) 1).val = (y 1).val := by
  obtain ⟨e0, e1⟩ := idx_facts1_3 t
  constructor
  · show win1_3.index t (0 : Fin 2) * 512 + 1 * (y 0).val = _; omega
  · show win1_3.index t (1 : Fin 2) * 512 + 1 * (y 1).val = _; omega

end Cert.KernelIdeal.Hand
end
-- ==== Proof.KPayloads.lean ====
import proofs.«146708_g52493090291789_cont_8to1_c_1103_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KPayloads

open Cert.KernelIdeal Cert.KernelIdeal.Gen Idealize.ShloMosaic Idealize.ShloMosaic.ValueIdx
open scoped BigOperators

/-! # The two kernel bodies' arithmetic, read entry by entry

Each pure value a kernel body computes is read here at one entry, named by explicit row and column
coordinates, over the extended reals. The first body forms, for a tile of 512 rows against 512
columns, the score `-1000 · √(max (|x|² - 2 ⟨x, y⟩ + |y|²) 0)`, the tile's column maxima and column sums of
exponentials, and the update of a running maximum and running sum by them. The second body divides
the exponential of a score shifted by the column's final maximum by the column's final sum. -/

/-! ## Layout operations at an entry -/

section Layout
variable {α : Type}

/-- A vector of `a` entries viewed as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row 0 of an `[8, 512]` array, cut out as a `[1, 512]` array, reads at column `j` the array at
`(0, j)`. -/
theorem row0_apply (w : S8x512.Idx → α) (h1 : S8x512.ShapeCasts S8x512)
    (h2 : S8x512.Slices ![0, 0] S1x512) (z : Fin 1) (j : Fin 512) :
    extractStridedSlice S1x512 ![0, 0] (shapeCast S8x512 w h1) h2 (ix2 z j) = w (ix2 (0 : Fin 8) j) := by
  rw [shapeCast_self]
  exact slice2_axis0_apply 0 w h2 z j (0 : Fin 8) (by have := z.isLt; show 0 = 0 + z.val; omega)

/-- A `[1, 512]` row spread over 8 rows reads at `(q, j)` the row at `j`. -/
theorem spread8_apply (w : S1x512.Idx → α) (h1 : S1x512.ShapeCasts S1x512)
    (h2 : S1x512.Broadcasts S8x512) (q : Fin 8) (j : Fin 512) :
    broadcastTo S8x512 (shapeCast S1x512 w h1) h2 (ix2 q j) = w (ix2 (0 : Fin 1) j) := by
  rw [shapeCast_self]
  exact broadcastTo_1b_ab_apply w h2 q j

end Layout

/-- A vector exponential at an entry is the extended reals' exponential of the entry. -/
theorem exp_apply {s : Shape} {φ : FTy} (a : FVec Ideal s φ) (i : s.Idx) : exp a i = Ideal.exp (a i) := rfl

/-- A vector square root at an entry is the extended reals' square root of the entry. -/
theorem sqrt_apply {s : Shape} {φ : FTy} (a : FVec Ideal s φ) (i : s.Idx) : sqrt a i = Ideal.sqrt (a i) := rfl

/-- A scalar constant spread over a shape reads, at any entry, the extended real its word denotes. -/
theorem splat_apply {s : Shape} (b : BitVec 32) (i : s.Idx) :
    broadcast s (Scalar.ofBits (F := Ideal) .f32 b) i = Ideal.ofBits .f32 b := rfl

/-- The index a reduction over the rows inserts: column `j` with row `p` put back is `(p, j)`. -/
theorem lift_rows (j p : Fin 512) : reduces_S512x512_S512.lift (ix1 j) p = ix2 p j := by
  funext a
  refine Fin.ext ?_
  match a with
  | ⟨0, _⟩ => rfl
  | ⟨1, _⟩ => rfl

/-- The index a reduction over the columns inserts: row `p` with column `k` put back is `(p, k)`. -/
theorem lift_cols (p : Fin 512) (k : Fin 256) : reduces_S512x256_S512.lift (ix1 p) k = ix2 p k := by
  funext a
  refine Fin.ext ?_
  match a with
  | ⟨0, _⟩ => rfl
  | ⟨1, _⟩ => rfl

variable (x0 x1 : Vec Ideal S512x256 .f32) (v u : Vec Ideal S8x512 .f32)
  (sc : Vec Ideal S512x512 .f32) (p : Fin 512) (q : Fin 8) (j : Fin 512) (z : Fin 1)

/-! ## The score -/

/-- The matrix product's left operand is read, on its row axis, at the output's row. -/
theorem lhs_row (i : S512x512.Idx) (k : dot_S512x256_S512x256_S512x512_1_1_0_0_n_n.contr.Idx) :
    (dot_S512x256_S512x256_S512x512_1_1_0_0_n_n.lhsIdx i k 0).val = (i 0).val := by
  unfold DotDims.lhsIdx
  rw [dif_neg (show ¬(0 : Fin S512x256.rank) ∈ dot_S512x256_S512x256_S512x512_1_1_0_0_n_n.lhsBatch by decide),
    dif_pos (show (0 : Fin S512x256.rank) ∈ dot_S512x256_S512x256_S512x512_1_1_0_0_n_n.lhsNonContracting by decide)]
  rfl

/-- The matrix product's right operand is read, on its row axis, at the output's column. -/
theorem rhs_row (i : S512x512.Idx) (k : dot_S512x256_S512x256_S512x512_1_1_0_0_n_n.contr.Idx) :
    (dot_S512x256_S512x256_S512x512_1_1_0_0_n_n.rhsIdx i k 0).val = (i 1).val := by
  unfold DotDims.rhsIdx
  rw [dif_neg (show ¬(0 : Fin S512x256.rank) ∈ dot_S512x256_S512x256_S512x512_1_1_0_0_n_n.rhsBatch by decide),
    dif_pos (show (0 : Fin S512x256.rank) ∈ dot_S512x256_S512x256_S512x512_1_1_0_0_n_n.rhsNonContracting by decide)]
  rfl

/-- The matrix product contracting the last axis of both operands, into a zero accumulator: at
`(p, j)` the inner product of row `p` of the left operand and row `j` of the right one. -/
theorem gram_apply (a b : FVec Ideal S512x256 .f32) (p j : Fin 512) :
    matmul dot_S512x256_S512x256_S512x512_1_1_0_0_n_n none a b
        (constant (F := Ideal) S512x512 .f32 0x00000000#32) (ix2 p j)
      = ∑ k : Fin 256, a (ix2 p k) * b (ix2 j k) := by
  simp only [matmul]
  rw [Ideal.matmul_constant_zero_apply,
    ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 p j)
      ((contrEquiv1 dot_S512x256_S512x256_S512x512_1_1_0_0_n_n 256 rfl rfl).symm k) = ix2 p k :=
    funext fun a => Fin.ext (by
      match a with
      | ⟨0, _⟩ => exact lhs_row _ _
      | ⟨1, _⟩ => exact (dot_S512x256_S512x256_S512x512_1_1_0_0_n_n.lhsIdx_val_of_single rfl _ _).trans hk)
  have er : dot_S512x256_S512x256_S512x512_1_1_0_0_n_n.rhsIdx (ix2 p j)
      ((contrEquiv1 dot_S512x256_S512x256_S512x512_1_1_0_0_n_n 256 rfl rfl).symm k) = ix2 j k :=
    funext fun a => Fin.ext (by
      match a with
      | ⟨0, _⟩ => exact rhs_row _ _
      | ⟨1, _⟩ => exact (dot_S512x256_S512x256_S512x512_1_1_0_0_n_n.rhsIdx_val_of_single rfl _ _).trans hk)
  rw [el, er]

/-- The squared norms of the rows, kept as a column and spread over the columns: at `(p, j)` the
squared norm of row `p`. -/
theorem sqnorm_row_apply :
    broadcastTo S512x512 (shapeCast S512x1 (multiReduction (F := Ideal) .add [1] S512 (mulf x0 x0)
        0x00000000#32 reduces_S512x256_S512 (.inl rfl) rfl) shapeCasts_S512_S512x1)
      broadcasts_S512x1_S512x512 (ix2 p j)
      = ∑ k : Fin 256, x0 (ix2 p k) * x0 (ix2 p k) := by
  refine (broadcastTo_a1_ab_apply _ broadcasts_S512x1_S512x512 p j).trans ?_
  refine (shapeCast_a_a1_apply _ shapeCasts_S512_S512x1 p 0).trans ?_
  refine (Ideal.multiReduction_add_single _ _ reduces_S512x256_S512 (.inl rfl) rfl (ix1 p)).trans ?_
  refine Finset.sum_congr rfl fun (k : Fin 256) _ => ?_
  rw [lift_cols p k]
  exact mulf_apply _ _ _

/-- The squared norms of the rows, kept as a row and spread over the rows: at `(p, j)` the squared
norm of row `j`. -/
theorem sqnorm_col_apply :
    broadcastTo S512x512 (shapeCast S1x512 (multiReduction (F := Ideal) .add [1] S512 (mulf x1 x1)
        0x00000000#32 reduces_S512x256_S512 (.inl rfl) rfl) shapeCasts_S512_S1x512)
      broadcasts_S1x512_S512x512 (ix2 p j)
      = ∑ k : Fin 256, x1 (ix2 j k) * x1 (ix2 j k) := by
  refine (broadcastTo_1b_ab_apply _ broadcasts_S1x512_S512x512 p j).trans ?_
  refine (shapeCast_a_1a_apply _ shapeCasts_S512_S1x512 0 j).trans ?_
  refine (Ideal.multiReduction_add_single _ _ reduces_S512x256_S512 (.inl rfl) rfl (ix1 j)).trans ?_
  refine Finset.sum_congr rfl fun (k : Fin 256) _ => ?_
  rw [lift_cols j k]
  exact mulf_apply _ _ _

/-- The score at `(p, j)`: `-1000` times the square root of the squared distance between row `p` of
the first operand and row `j` of the second, expanded as `|x|² - 2 ⟨x, y⟩ + |y|²` and clamped at
zero from below. -/
theorem k0_pay1_apply :
    k0_pay1 (F := Ideal) x0 x1 (ix2 p j)
      = Ideal.ofBits .f32 0xC47A0000#32
        * Ideal.sqrt (max ((∑ k : Fin 256, x0 (ix2 p k) * x0 (ix2 p k))
            - Ideal.ofBits .f32 0x40000000#32 * (∑ k : Fin 256, x0 (ix2 p k) * x1 (ix2 j k))
            + ∑ k : Fin 256, x1 (ix2 j k) * x1 (ix2 j k)) (Ideal.ofBits .f32 0x00000000#32)) := by
  unfold k0_pay1
  refine (mulf_apply _ _ _).trans ?_
  refine congrArg₂ (· * ·) (splat_apply _ _) ?_
  refine (sqrt_apply _ _).trans (congrArg Ideal.sqrt ?_)
  refine (maximumf_apply _ _ _).trans ?_
  refine congrArg₂ max ?_ (splat_apply _ _)
  refine (addf_apply _ _ _).trans ?_
  refine congrArg₂ (· + ·) ?_ (sqnorm_col_apply x1 p j)
  refine (subf_apply _ _ _).trans ?_
  refine congrArg₂ (· - ·) (sqnorm_row_apply x0 p j) ?_
  refine (mulf_apply _ _ _).trans ?_
  exact congrArg₂ (· * ·) (splat_apply _ _) (gram_apply x0 x1 p j)

/-! ## The second body: the normalisation -/

/-- The normalised entry: the exponential of the score less the column's maximum, divided by the
column's sum. -/
theorem k1_pay1_apply :
    k1_pay1 (F := Ideal) v u sc (ix2 p j)
      = Ideal.div (Ideal.exp (sc (ix2 p j) - v (ix2 0 j))) (u (ix2 0 j)) := by
  unfold k1_pay1
  show Ideal.div (Ideal.exp (shapeCast S512x512 sc shapeCasts_S512x512_S512x512 (ix2 p j)
      - broadcastTo S512x512 (extractStridedSlice S1x512 ![0, 0]
          (shapeCast S8x512 v shapeCasts_S8x512_S8x512) slices_S8x512_o0_0_S1x512)
          broadcasts_S1x512_S512x512 (ix2 p j)))
    (broadcastTo S512x512 (extractStridedSlice S1x512 ![0, 0]
          (shapeCast S8x512 u shapeCasts_S8x512_S8x512) slices_S8x512_o0_0_S1x512)
          broadcasts_S1x512_S512x512 (ix2 p j)) = _
  rw [shapeCast_self, broadcastTo_1b_ab_apply, broadcastTo_1b_ab_apply, row0_apply, row0_apply]

/-! ## The first body -/

/-- The tile's column maximum: the fold of `max` over the 512 rows of the scores in column `j`. -/
theorem k0_pay2_apply :
    k0_pay2 (F := Ideal) x0 x1 (ix2 z j)
      = (Finset.univ : Finset (Fin 512)).fold max (Ideal.ofBits .f32 0xFF800000#32)
          (fun p => k0_pay1 (F := Ideal) x0 x1 (ix2 p j)) := by
  unfold k0_pay2
  refine (shapeCast_a_1a_apply _ shapeCasts_S512_S1x512 z j).trans ?_
  refine (Ideal.multiReduction_maximumf_single (k0_pay1 (F := Ideal) x0 x1) _ reduces_S512x512_S512
    (.inl rfl) rfl (ix1 j)).trans ?_
  exact congrArg (fun f => Finset.fold max (Ideal.ofBits .f32 0xFF800000#32) f Finset.univ)
    (funext fun p => congrArg (k0_pay1 (F := Ideal) x0 x1) (lift_rows j p))

/-- The tile's column sum: the sum over the 512 rows of the exponentials of the scores in column
`j` less the tile's column maximum. -/
theorem k0_pay3_apply :
    k0_pay3 (F := Ideal) x0 x1 (ix2 z j)
      = ∑ p : Fin 512, Ideal.exp (k0_pay1 (F := Ideal) x0 x1 (ix2 p j)
          - k0_pay2 (F := Ideal) x0 x1 (ix2 0 j)) := by
  unfold k0_pay3
  refine (shapeCast_a_1a_apply _ shapeCasts_S512_S1x512 z j).trans ?_
  refine (Ideal.multiReduction_add_single _ _ reduces_S512x512_S512 (.inl rfl) rfl (ix1 j)).trans ?_
  refine Finset.sum_congr rfl fun (p : Fin 512) _ => ?_
  rw [lift_rows j p]
  show Ideal.exp (k0_pay1 (F := Ideal) x0 x1 (ix2 p j)
      - broadcastTo S512x512 (k0_pay2 (F := Ideal) x0 x1) broadcasts_S1x512_S512x512 (ix2 p j)) = _
  rw [broadcastTo_1b_ab_apply]

/-- The first tile stores the column maximum on all 8 rows. -/
theorem k0_pay4_apply :
    k0_pay4 (F := Ideal) x0 x1 (ix2 q j) = k0_pay2 (F := Ideal) x0 x1 (ix2 0 j) := by
  unfold k0_pay4
  exact spread8_apply _ _ _ q j

/-- The first tile stores the column sum on all 8 rows. -/
theorem k0_pay5_apply :
    k0_pay5 (F := Ideal) x0 x1 (ix2 q j) = k0_pay3 (F := Ideal) x0 x1 (ix2 0 j) := by
  unfold k0_pay5
  exact spread8_apply _ _ _ q j

/-- The stored running value is read back from row 0. -/
theorem k0_pay6_apply : k0_pay6 (F := Ideal) v (ix2 z j) = v (ix2 0 j) := by
  unfold k0_pay6
  exact row0_apply v _ _ z j

/-- The new running maximum: the larger of the stored one and the tile's. -/
theorem k0_pay7_apply :
    k0_pay7 (F := Ideal) x0 x1 v (ix2 z j)
      = max (v (ix2 0 j)) (k0_pay2 (F := Ideal) x0 x1 (ix2 0 j)) := by
  obtain rfl : z = 0 := Subsingleton.elim _ _
  unfold k0_pay7
  show max (k0_pay6 (F := Ideal) v (ix2 0 j)) (k0_pay2 (F := Ideal) x0 x1 (ix2 0 j)) = _
  rw [k0_pay6_apply]

/-- A later tile stores the new running maximum on all 8 rows. -/
theorem k0_pay8_apply :
    k0_pay8 (F := Ideal) x0 x1 v (ix2 q j) = k0_pay7 (F := Ideal) x0 x1 v (ix2 0 j) := by
  unfold k0_pay8
  exact spread8_apply _ _ _ q j

/-- A later tile stores the new running sum on all 8 rows: the stored sum and the tile's sum, each
rescaled from its own maximum to the new running maximum. -/
theorem k0_pay9_apply :
    k0_pay9 (F := Ideal) x0 x1 v u (ix2 q j)
      = u (ix2 0 j) * Ideal.exp (v (ix2 0 j) - k0_pay7 (F := Ideal) x0 x1 v (ix2 0 j))
        + k0_pay3 (F := Ideal) x0 x1 (ix2 0 j)
          * Ideal.exp (k0_pay2 (F := Ideal) x0 x1 (ix2 0 j) - k0_pay7 (F := Ideal) x0 x1 v (ix2 0 j)) := by
  unfold k0_pay9
  refine (spread8_apply _ _ _ q j).trans ?_
  refine (addf_apply _ _ _).trans ?_
  refine congrArg₂ (· + ·) ((mulf_apply _ _ _).trans ?_) ((mulf_apply _ _ _).trans ?_)
  · refine congrArg₂ (· * ·) (row0_apply u _ _ 0 j) ?_
    refine (exp_apply _ _).trans (congrArg Ideal.exp ?_)
    refine (subf_apply _ _ _).trans ?_
    rw [k0_pay6_apply]
  · refine congrArg (k0_pay3 (F := Ideal) x0 x1 (ix2 0 j) * ·) ?_
    exact (exp_apply _ _).trans (congrArg Ideal.exp (subf_apply _ _ _))

/-! ## Two constants -/

/-- The scale of the scores: the word `0xC47A0000` denotes the real number `-1000`. -/
theorem ofBits_neg1000 : Ideal.ofBits .f32 0xC47A0000#32 = ((-1000 : ℝ) : EReal) := by
  simp [Ideal.ofBits, Ideal.ieee, -EReal.coe_mul]; norm_num

/-- The start of a maximum: the word `0xFF800000` denotes `-∞`, the bottom of the extended reals. -/
theorem ofBits_neg_inf : Ideal.ofBits .f32 0xFF800000#32 = (⊥ : EReal) := by
  simp [Ideal.ofBits, Ideal.ieee]

end Cert.KPayloads
-- ==== Proof.Spec.lean ====
/-
  The function both programs compute, stated once over the extended reals, index by index.

  For inputs x : [16384, 256] and samples s : [512, 256]:
    d2 r j    = max (Σ_k x(r,k)² − 2 · Σ_k x(r,k)·s(j,k) + Σ_k s(j,k)²) 0     (the squared distance, clamped at zero)
    score r j = −1000 · sqrt (d2 r j)
    colMax j  = the maximum over all 16384 rows r of score r j (a fold of max from −∞)
    colSum j  = Σ_r exp (score r j − colMax j)
    G (r, j)  = exp (score r j − colMax j) / colSum j                         (a softmax down each column)
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![16384, 256]⟩
abbrev SS : Shape := ⟨2, ![512, 256]⟩
abbrev SO : Shape := ⟨2, ![16384, 512]⟩

/-- The squared norm of row `r` of `x`. -/
def xsq (x : SX.Idx → EReal) (r : Fin 16384) : EReal := ∑ k : Fin 256, x (ix2 r k) * x (ix2 r k)
/-- The squared norm of sample `j`. -/
def ssq (s : SS.Idx → EReal) (j : Fin 512) : EReal := ∑ k : Fin 256, s (ix2 j k) * s (ix2 j k)
/-- The inner product of row `r` of `x` with sample `j`. -/
def dot (x : SX.Idx → EReal) (s : SS.Idx → EReal) (r : Fin 16384) (j : Fin 512) : EReal :=
  ∑ k : Fin 256, x (ix2 r k) * s (ix2 j k)

/-- The squared distance by the expanded form, clamped at zero; the factor two is kept as its float word
    (both programs spell the same word). -/
def d2 (x : SX.Idx → EReal) (s : SS.Idx → EReal) (r : Fin 16384) (j : Fin 512) : EReal :=
  max (xsq x r - Ideal.ofBits .f32 0x40000000#32 * dot x s r j + ssq s j) 0

/-- The score: minus a thousand times the distance. -/
def score (x : SX.Idx → EReal) (s : SS.Idx → EReal) (r : Fin 16384) (j : Fin 512) : EReal :=
  ((-1000 : ℝ) : EReal) * Ideal.sqrt (d2 x s r j)

/-- The largest score of column `j`. -/
def colMax (x : SX.Idx → EReal) (s : SS.Idx → EReal) (j : Fin 512) : EReal :=
  (Finset.univ : Finset (Fin 16384)).fold max ⊥ (fun r => score x s r j)

/-- The sum down column `j` of the exponentials of the scores less their maximum. -/
def colSum (x : SX.Idx → EReal) (s : SS.Idx → EReal) (j : Fin 512) : EReal :=
  ∑ r : Fin 16384, Ideal.exp (score x s r j - colMax x s j)

/-- The softmax down column `j`, at row `r`. -/
def Gat (x : SX.Idx → EReal) (s : SS.Idx → EReal) (r : Fin 16384) (j : Fin 512) : EReal :=
  Ideal.div (Ideal.exp (score x s r j - colMax x s j)) (colSum x s j)

/-- The whole result array. -/
def G (x : SX.Idx → EReal) (s : SS.Idx → EReal) : SO.Idx → EReal := fun i => Gat x s (i 0) (i 1)

theorem G_ix2 (x : SX.Idx → EReal) (s : SS.Idx → EReal) (r : Fin 16384) (j : Fin 512) :
    G x s (ix2 r j) = Gat x s r j := rfl

end Cert.Spec

end
-- ==== Proof.LibOnlineSoftmax.lean ====
import Mathlib.Data.EReal.Operations
import Mathlib.Data.Finset.Lattice.Fold
import Mathlib.Data.Fintype.BigOperators
import Mathlib.Algebra.BigOperators.Fin
import Mathlib.Analysis.SpecialFunctions.Exp
import Idealize.ShloMosaic.PureOps.Ideal

noncomputable section

namespace Cert.OnlineSoftmax

open Idealize.ShloMosaic
open scoped BigOperators

/-! # Online (tile by tile) column maximum and sum of exponentials

A column of scores `sc 0, sc 1, …` is cut into consecutive tiles of `b` rows. A one-pass
softmax keeps a running maximum `M` and a running sum `S = ∑ exp (sc r - M)` over the rows
seen so far. On meeting a new tile with maximum `T` it replaces `M` by `M' = max M T` and `S`
by `S · exp (M - M') + (∑ exp (sc r - T)) · exp (T - M')`. When every score is a real number the
two recurrences compute the maximum and the sum of exponentials of all rows seen so far, because
`exp (x - M) · exp (M - M') = exp (x - M')` over the reals. -/

/-- The maximum of the `b` scores of tile `t` (rows `b * t, …, b * t + b - 1`). -/
def tileMax (sc : ℕ → EReal) (b t : ℕ) : EReal :=
  (Finset.univ : Finset (Fin b)).fold max ⊥ (fun p => sc (b * t + p.val))

/-- The sum over tile `t` of the exponentials of the scores shifted by the tile's own maximum. -/
def tileSum (sc : ℕ → EReal) (b t : ℕ) : EReal :=
  ∑ p : Fin b, Ideal.exp (sc (b * t + p.val) - tileMax sc b t)

/-- The running maximum after tiles `0, …, n`: each new tile's maximum is joined to the old one. -/
def runMax (sc : ℕ → EReal) (b : ℕ) : ℕ → EReal
  | 0 => tileMax sc b 0
  | n + 1 => max (runMax sc b n) (tileMax sc b (n + 1))

/-- The running sum after tiles `0, …, n`: the old sum and the new tile's sum are both rescaled
from their own reference maximum to the new running maximum, then added. -/
def runSum (sc : ℕ → EReal) (b : ℕ) : ℕ → EReal
  | 0 => tileSum sc b 0
  | n + 1 =>
    runSum sc b n * Ideal.exp (runMax sc b n - runMax sc b (n + 1))
      + tileSum sc b (n + 1) * Ideal.exp (tileMax sc b (n + 1) - runMax sc b (n + 1))

/-! ## Folds of `max` as finite suprema -/

/-- Folding `max` from `⊥` over a finite set is the finite supremum. -/
theorem fold_max_eq_sup {ι : Type*} (s : Finset ι) (f : ι → EReal) :
    s.fold max ⊥ f = s.sup f := rfl

/-- A supremum over all of `Fin n` of a function of the underlying number is the supremum over
`Finset.range n`. -/
theorem sup_univ_fin_eq_sup_range (n : ℕ) (f : ℕ → EReal) :
    (Finset.univ : Finset (Fin n)).sup (fun i => f i.val) = (Finset.range n).sup f := by
  apply le_antisymm
  · exact Finset.sup_le fun i _ => Finset.le_sup (f := f) (Finset.mem_range.2 i.isLt)
  · refine Finset.sup_le fun k hk => ?_
    exact Finset.le_sup (f := fun i : Fin n => f i.val) (Finset.mem_univ ⟨k, Finset.mem_range.1 hk⟩)

/-- The supremum over the first `m + b` numbers is the larger of the supremum over the first `m`
and the supremum over the next `b`. -/
theorem sup_range_add (f : ℕ → EReal) (m b : ℕ) :
    (Finset.range (m + b)).sup f
      = max ((Finset.range m).sup f) ((Finset.range b).sup fun p => f (m + p)) := by
  induction b with
  | zero => simp
  | succ b ih =>
    rw [← Nat.add_assoc, Finset.range_add_one, Finset.sup_insert, ih, Finset.range_add_one,
      Finset.sup_insert]
    exact max_left_comm _ _ _

/-- The tile maximum as a supremum over a range. -/
theorem tileMax_eq_sup_range (sc : ℕ → EReal) (b t : ℕ) :
    tileMax sc b t = (Finset.range b).sup fun p => sc (b * t + p) := by
  unfold tileMax
  rw [fold_max_eq_sup]
  exact sup_univ_fin_eq_sup_range b fun p => sc (b * t + p)

/-- The running maximum after tiles `0, …, n` is the supremum of the first `b * (n + 1)` scores. -/
theorem runMax_eq_sup_range (sc : ℕ → EReal) (b n : ℕ) :
    runMax sc b n = (Finset.range (b * (n + 1))).sup sc := by
  induction n with
  | zero =>
    show tileMax sc b 0 = _
    rw [tileMax_eq_sup_range]
    simp
  | succ n ih =>
    show max (runMax sc b n) (tileMax sc b (n + 1)) = _
    rw [ih, tileMax_eq_sup_range, Nat.mul_succ b (n + 1), sup_range_add]

/-- **The running maximum is the column maximum**: after tiles `0, …, n` the running maximum is
the fold of `max` over all `b * (n + 1)` rows seen so far. (No hypothesis is needed.) -/
theorem runMax_eq (sc : ℕ → EReal) (b n : ℕ) :
    runMax sc b n
      = (Finset.univ : Finset (Fin (b * (n + 1)))).fold max ⊥ (fun r => sc r.val) := by
  rw [fold_max_eq_sup, sup_univ_fin_eq_sup_range (b * (n + 1)) sc, runMax_eq_sup_range]

/-! ## Real scores give real maxima -/

/-- A supremum of real numbers over a nonempty finite set is a real number. -/
theorem sup_real {ι : Type*} (s : Finset ι) (hs : s.Nonempty) (f : ι → EReal)
    (hf : ∀ i, ∃ a : ℝ, f i = (a : EReal)) : ∃ a : ℝ, s.sup f = (a : EReal) := by
  obtain ⟨i, -, hi⟩ := Finset.exists_mem_eq_sup s hs f
  obtain ⟨a, ha⟩ := hf i
  exact ⟨a, hi.trans ha⟩

/-- With real scores and a nonempty tile, the tile maximum is a real number. -/
theorem tileMax_real {sc : ℕ → EReal} {b : ℕ} (hfin : ∀ r, ∃ a : ℝ, sc r = (a : EReal))
    (hb : 0 < b) (t : ℕ) : ∃ a : ℝ, tileMax sc b t = (a : EReal) := by
  rw [tileMax_eq_sup_range]
  exact sup_real _ (Finset.nonempty_range_iff.2 hb.ne') _ fun p => hfin _

/-- With real scores and nonempty tiles, the running maximum is a real number. -/
theorem runMax_real {sc : ℕ → EReal} {b : ℕ} (hfin : ∀ r, ∃ a : ℝ, sc r = (a : EReal))
    (hb : 0 < b) (n : ℕ) : ∃ a : ℝ, runMax sc b n = (a : EReal) := by
  rw [runMax_eq_sup_range]
  exact sup_real _ (Finset.nonempty_range_iff.2 (Nat.mul_pos hb n.succ_pos).ne') _ hfin

/-! ## Rescaling a sum of exponentials -/

/-- A finite sum of exponentials of real numbers shifted by a real reference is the (coerced) real
sum of real exponentials. -/
theorem sum_exp_coe (s : Finset ℕ) (a : ℕ → ℝ) (M : ℝ) :
    ∑ r ∈ s, Ideal.exp ((a r : EReal) - (M : EReal))
      = ((∑ r ∈ s, Real.exp (a r - M) : ℝ) : EReal) := by
  classical
  induction s using Finset.induction_on with
  | empty => simp
  | insert x s hx ih =>
    rw [Finset.sum_insert hx, Finset.sum_insert hx, ih, EReal.coe_add, ← EReal.coe_sub,
      Ideal.exp_coe]

/-- Changing the reference of a sum of exponentials from `M` to `M'`: multiply by
`exp (M - M')`, since `exp (x - M) · exp (M - M') = exp (x - M')` for reals. -/
theorem sum_exp_mul (s : Finset ℕ) (a : ℕ → ℝ) (M M' : ℝ) :
    (∑ r ∈ s, Ideal.exp ((a r : EReal) - (M : EReal))) * Ideal.exp ((M : EReal) - (M' : EReal))
      = ∑ r ∈ s, Ideal.exp ((a r : EReal) - (M' : EReal)) := by
  rw [sum_exp_coe, sum_exp_coe, ← EReal.coe_sub, Ideal.exp_coe, ← EReal.coe_mul, Finset.sum_mul]
  congr 1
  refine Finset.sum_congr rfl fun r _ => ?_
  rw [← Real.exp_add]
  congr 1
  ring

/-- The tile sum as a sum over a range. -/
theorem tileSum_eq_sum_range (sc : ℕ → EReal) (b t : ℕ) :
    tileSum sc b t = ∑ p ∈ Finset.range b, Ideal.exp (sc (b * t + p) - tileMax sc b t) := by
  unfold tileSum
  exact (Finset.sum_range fun p => Ideal.exp (sc (b * t + p) - tileMax sc b t)).symm

/-- The running sum after tiles `0, …, n` is the sum over the first `b * (n + 1)` rows of the
exponentials of the scores shifted by the running maximum (range form). -/
theorem runSum_eq_sum_range {sc : ℕ → EReal} {b : ℕ} (hfin : ∀ r, ∃ a : ℝ, sc r = (a : EReal))
    (hb : 0 < b) (n : ℕ) :
    runSum sc b n = ∑ r ∈ Finset.range (b * (n + 1)), Ideal.exp (sc r - runMax sc b n) := by
  induction n with
  | zero =>
    show tileSum sc b 0 = ∑ r ∈ Finset.range (b * (0 + 1)), Ideal.exp (sc r - tileMax sc b 0)
    rw [tileSum_eq_sum_range]
    simp
  | succ n ih =>
    obtain ⟨a, ha⟩ : ∃ a : ℕ → ℝ, ∀ r, sc r = (a r : EReal) :=
      ⟨fun r => Classical.choose (hfin r), fun r => Classical.choose_spec (hfin r)⟩
    obtain ⟨M, hM⟩ := runMax_real hfin hb n
    obtain ⟨M', hM'⟩ := runMax_real hfin hb (n + 1)
    obtain ⟨T, hT⟩ := tileMax_real hfin hb (n + 1)
    show runSum sc b n * Ideal.exp (runMax sc b n - runMax sc b (n + 1))
        + tileSum sc b (n + 1) * Ideal.exp (tileMax sc b (n + 1) - runMax sc b (n + 1)) = _
    rw [ih, tileSum_eq_sum_range, hM, hM', hT, Nat.mul_succ b (n + 1), Finset.sum_range_add]
    simp only [ha]
    rw [sum_exp_mul, sum_exp_mul (Finset.range b) (fun p => a (b * (n + 1) + p)) T M']

/-- **The running sum is the column's sum of exponentials**: with real scores and nonempty tiles,
after tiles `0, …, n` the running sum is the sum over all `b * (n + 1)` rows seen so far of the
exponentials of the scores shifted by the running maximum. -/
theorem runSum_eq {sc : ℕ → EReal} {b : ℕ} (hfin : ∀ r, ∃ a : ℝ, sc r = (a : EReal))
    (hb : 0 < b) (n : ℕ) :
    runSum sc b n = ∑ r : Fin (b * (n + 1)), Ideal.exp (sc r.val - runMax sc b n) := by
  rw [runSum_eq_sum_range hfin hb n]
  exact Finset.sum_range fun r => Ideal.exp (sc r - runMax sc b n)

end Cert.OnlineSoftmax
-- ==== Proof.SpecOnline.lean ====
import proofs.«146708_g52493090291789_cont_8to1_c_1103_2_alg».proof.Proof.Spec
import proofs.«146708_g52493090291789_cont_8to1_c_1103_2_alg».proof.Proof.LibOnlineSoftmax

/-
  The specification's column maximum and column sum as the tile-by-tile running maximum and running sum.

  A column of the 16384 scores is cut into 32 tiles of 512 rows. The column's scores are extended to a
  sequence over all natural numbers (zero past the last row) so that the running recurrences apply to it.
  The fold of max over the 512 · 32 rows seen after the last tile is the fold over the 16384 rows, and
  likewise the sum of exponentials, once every score is a real number. The scores are real numbers whenever
  the entries of both arrays are: finite sums of products of reals are real, a maximum of two reals is real,
  the square root of a non-negative real is real, and so is a real multiple of it.
-/

noncomputable section

namespace Cert.SpecOnline

open Cert.Spec Cert.OnlineSoftmax Idealize.ShloMosaic Idealize.ShloMosaic.ValueIdx

/-- Column j of the scores as a sequence over the natural numbers: the score at row r below 16384, zero past it. -/
def scN (x : SX.Idx → EReal) (s : SS.Idx → EReal) (j : Fin 512) : ℕ → EReal :=
  fun r => if h : r < 16384 then score x s ⟨r, h⟩ j else 0

/-! ## Real numbers are closed under the operations of the score -/

/-- A finite sum of real numbers is a real number. -/
theorem sum_real {ι : Type*} (t : Finset ι) (f : ι → EReal) (hf : ∀ i, ∃ a : ℝ, f i = (a : EReal)) :
    ∃ a : ℝ, ∑ i ∈ t, f i = (a : EReal) := by
  classical
  induction t using Finset.induction_on with
  | empty => exact ⟨0, by simp⟩
  | insert i t hi ih =>
    obtain ⟨a, ha⟩ := ih
    obtain ⟨b, hb⟩ := hf i
    exact ⟨b + a, by rw [Finset.sum_insert hi, ha, hb, EReal.coe_add]⟩

theorem mul_real {u v : EReal} (hu : ∃ a : ℝ, u = (a : EReal)) (hv : ∃ b : ℝ, v = (b : EReal)) :
    ∃ c : ℝ, u * v = (c : EReal) := by
  obtain ⟨a, rfl⟩ := hu; obtain ⟨b, rfl⟩ := hv; exact ⟨a * b, (EReal.coe_mul a b).symm⟩

theorem add_real {u v : EReal} (hu : ∃ a : ℝ, u = (a : EReal)) (hv : ∃ b : ℝ, v = (b : EReal)) :
    ∃ c : ℝ, u + v = (c : EReal) := by
  obtain ⟨a, rfl⟩ := hu; obtain ⟨b, rfl⟩ := hv; exact ⟨a + b, (EReal.coe_add a b).symm⟩

theorem sub_real {u v : EReal} (hu : ∃ a : ℝ, u = (a : EReal)) (hv : ∃ b : ℝ, v = (b : EReal)) :
    ∃ c : ℝ, u - v = (c : EReal) := by
  obtain ⟨a, rfl⟩ := hu; obtain ⟨b, rfl⟩ := hv; exact ⟨a - b, (EReal.coe_sub a b).symm⟩

theorem max_real {u v : EReal} (hu : ∃ a : ℝ, u = (a : EReal)) (hv : ∃ b : ℝ, v = (b : EReal)) :
    ∃ c : ℝ, max u v = (c : EReal) := by
  rcases max_choice u v with h | h <;> rw [h] <;> assumption

/-- The square root of a non-negative real number is a real number. -/
theorem sqrt_real {u : EReal} (hu : ∃ a : ℝ, u = (a : EReal)) (h0 : 0 ≤ u) : ∃ c : ℝ, Ideal.sqrt u = (c : EReal) := by
  obtain ⟨a, rfl⟩ := hu
  have ha : 0 ≤ a := by exact_mod_cast h0
  exact ⟨Real.sqrt a, by rw [Ideal.sqrt_coe, if_neg (not_lt.mpr ha)]⟩

/-- The word 0x40000000 denotes two. -/
theorem two_word : Ideal.ofBits .f32 0x40000000#32 = ((2 : ℝ) : EReal) := by
  simp [Ideal.ofBits, Ideal.ieee, -EReal.coe_mul]; norm_num

/-! ## The scores are real numbers when the entries are -/

variable {x : SX.Idx → EReal} {s : SS.Idx → EReal}

theorem score_real (hx : ∀ i, ∃ a : ℝ, x i = (a : EReal)) (hs : ∀ i, ∃ a : ℝ, s i = (a : EReal))
    (r : Fin 16384) (j : Fin 512) : ∃ a : ℝ, score x s r j = (a : EReal) := by
  have hA : ∃ a : ℝ, xsq x r = (a : EReal) :=
    sum_real Finset.univ (fun k : Fin 256 => x (ix2 r k) * x (ix2 r k)) fun k => mul_real (hx _) (hx _)
  have hB : ∃ a : ℝ, dot x s r j = (a : EReal) :=
    sum_real Finset.univ (fun k : Fin 256 => x (ix2 r k) * s (ix2 j k)) fun k => mul_real (hx _) (hs _)
  have hC : ∃ a : ℝ, ssq s j = (a : EReal) :=
    sum_real Finset.univ (fun k : Fin 256 => s (ix2 j k) * s (ix2 j k)) fun k => mul_real (hs _) (hs _)
  unfold score
  refine mul_real ⟨-1000, rfl⟩ (sqrt_real ?_ (le_max_right _ _))
  unfold d2
  exact max_real (add_real (sub_real hA (mul_real ⟨2, two_word⟩ hB)) hC) ⟨0, EReal.coe_zero.symm⟩

/-- The sequence at a row below 16384 is that row's score. -/
theorem scN_lt (x : SX.Idx → EReal) (s : SS.Idx → EReal) (j : Fin 512) (r : ℕ) (h : r < 16384) :
    scN x s j r = score x s ⟨r, h⟩ j := dif_pos h

theorem scN_real (hx : ∀ i, ∃ a : ℝ, x i = (a : EReal)) (hs : ∀ i, ∃ a : ℝ, s i = (a : EReal)) (j : Fin 512) :
    ∀ r, ∃ a : ℝ, scN x s j r = (a : EReal) := by
  intro r
  by_cases h : r < 16384
  · rw [scN_lt x s j r h]; exact score_real hx hs _ j
  · have e : scN x s j r = 0 := dif_neg h
    rw [e]; exact ⟨0, EReal.coe_zero.symm⟩

/-! ## Re-indexing a fold or a sum over the first n numbers along an equality of the bounds -/

theorem fold_max_cast {n m : ℕ} (h : n = m) (f : ℕ → EReal) :
    (Finset.univ : Finset (Fin n)).fold max ⊥ (fun r => f r.val)
      = (Finset.univ : Finset (Fin m)).fold max ⊥ (fun r => f r.val) := by
  subst h; rfl

theorem sum_cast {n m : ℕ} (h : n = m) (f : ℕ → EReal) :
    ∑ r : Fin n, f r.val = ∑ r : Fin m, f r.val := by
  subst h; rfl

/-! ## The column maximum and the column sum, tile by tile -/

/-- The column maximum is the running maximum after the 32 tiles of 512 rows. -/
theorem colMax_eq (x : SX.Idx → EReal) (s : SS.Idx → EReal) (j : Fin 512) :
    colMax x s j = runMax (scN x s j) 512 31 := by
  rw [runMax_eq, fold_max_cast (by norm_num : 512 * (31 + 1) = 16384) (scN x s j)]
  unfold colMax
  have hf : (fun r : Fin 16384 => scN x s j r.val) = fun r : Fin 16384 => score x s r j :=
    funext fun r => scN_lt x s j r.val r.isLt
  rw [hf]

/-- With real entries the column sum is the running sum after the 32 tiles of 512 rows. -/
theorem colSum_eq (hx : ∀ i, ∃ a : ℝ, x i = (a : EReal)) (hs : ∀ i, ∃ a : ℝ, s i = (a : EReal)) (j : Fin 512) :
    colSum x s j = runSum (scN x s j) 512 31 := by
  rw [runSum_eq (scN_real hx hs j) (by norm_num) 31, ← colMax_eq,
    sum_cast (by norm_num : 512 * (31 + 1) = 16384) (fun r => Ideal.exp (scN x s j r - colMax x s j))]
  unfold colSum
  refine Finset.sum_congr rfl fun r _ => ?_
  rw [scN_lt x s j r.val r.isLt]

/-- The sequence at row p of tile t. -/
theorem scN_tile (x : SX.Idx → EReal) (s : SS.Idx → EReal) (j : Fin 512) (t : Fin 32) (p : Fin 512)
    (h : 512 * t.val + p.val < 16384) : scN x s j (512 * t.val + p.val) = score x s ⟨512 * t.val + p.val, h⟩ j :=
  dif_pos h

end Cert.SpecOnline

end
-- ==== Proof.KIdealValue.lean ====
/-
  The idealized kernel's result array, over the extended reals, is the specification of Spec.lean applied to the
  launched inputs, when every input is a real number.
-/
import proofs.«146708_g52493090291789_cont_8to1_c_1103_2_alg».proof.Proof.KIdealBlocks
import proofs.«146708_g52493090291789_cont_8to1_c_1103_2_alg».proof.Proof.KPayloads
import proofs.«146708_g52493090291789_cont_8to1_c_1103_2_alg».proof.Proof.SpecOnline
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Spec Cert.OnlineSoftmax Cert.SpecOnline Cert.KPayloads
open Idealize.ShloMosaic.ValueIdx

/-! # The kernel's result is the specification

Over the extended reals, with every input a real number: the tile of scores point t computes is the tile of the
specification's scores; the running maximum and running sum the first region keeps are, after point n, the online
maximum and rescaled sum over the first n+1 tiles, hence after the last point the column maximum and column sum; and
the second region's tile is then the specification's softmax tile. -/

variable (m : (ℓ : Loc nD τ sig) → Buf (Elt Ideal) ℓ) (ρ : Dev nD → PrngReg)

/-- The two argument arrays as launched. -/
abbrev xA (c : Dev nD) : SX.Idx → EReal := m ((c : Thread nD τ).loc main_arg0)
abbrev sA (c : Dev nD) : SS.Idx → EReal := m ((c : Thread nD τ).loc main_arg1)

/-- The float word of minus a thousand denotes the real −1000; the word of minus infinity denotes ⊥. -/
theorem negThousand_word : Ideal.ofBits .f32 0xC47A0000#32 = ((-1000 : ℝ) : EReal) := by
  simp [Ideal.ofBits, Ideal.ieee, -EReal.coe_mul]; norm_num
theorem negInf_word : Ideal.ofBits .f32 0xFF800000#32 = (⊥ : EReal) := by
  simp [Ideal.ofBits, Ideal.ieee]

/-- The score point `t` computes at row `p` of its tile is the specification's score of row 512·t + p. -/
theorem tile_score (c : Dev nD) (t : Fin cfg0.N) (p j : Fin 512) (h : 512 * t.val + p.val < 16384) :
    k0_pay1 (F := Ideal) (iblk0 (V0 m ρ) c 0 t) (iblk0 (V0 m ρ) c 1 t) (ix2 p j)
      = score (xA m c) (sA m c) ⟨512 * t.val + p.val, h⟩ j := by
  rw [k0_pay1_apply, negThousand_word, Ideal.ofBits_zero_f32]
  have e0 : ∀ k : Fin 256, iblk0 (V0 m ρ) c 0 t (ix2 p k) = xA m c (ix2 ⟨512 * t.val + p.val, h⟩ k) :=
    fun k => iblk0_0_apply m ρ c t (ix2 p k) (ix2 ⟨512 * t.val + p.val, h⟩ k) rfl rfl
  have e1 : ∀ k : Fin 256, iblk0 (V0 m ρ) c 1 t (ix2 j k) = sA m c (ix2 j k) :=
    fun k => iblk0_1_apply m ρ c t (ix2 j k)
  simp only [e0, e1]
  rfl

theorem tile_lt (t : Fin cfg0.N) (p : Fin 512) : 512 * t.val + p.val < 16384 := by
  have ht : t.val < 32 := lt_of_lt_of_eq t.isLt N_0
  have hp := p.isLt
  omega

/-- The tile's column maximum and column sum are the online computation's. -/
theorem tile_max (c : Dev nD) (t : Fin cfg0.N) (z : Fin 1) (j : Fin 512) :
    k0_pay2 (F := Ideal) (iblk0 (V0 m ρ) c 0 t) (iblk0 (V0 m ρ) c 1 t) (ix2 z j) = tileMax (scN (xA m c) (sA m c) j) 512 t.val := by
  rw [k0_pay2_apply, negInf_word]
  unfold tileMax
  refine congrArg (fun f => Finset.fold max ⊥ f Finset.univ) (funext fun p => ?_)
  rw [tile_score m ρ c t p j (tile_lt t p), scN_lt _ _ _ _ (tile_lt t p)]
theorem tile_sum (c : Dev nD) (t : Fin cfg0.N) (z : Fin 1) (j : Fin 512) :
    k0_pay3 (F := Ideal) (iblk0 (V0 m ρ) c 0 t) (iblk0 (V0 m ρ) c 1 t) (ix2 z j) = tileSum (scN (xA m c) (sA m c) j) 512 t.val := by
  rw [k0_pay3_apply, tile_max]
  unfold tileSum
  refine Finset.sum_congr rfl fun p _ => ?_
  rw [tile_score m ρ c t p j (tile_lt t p), scN_lt _ _ _ _ (tile_lt t p)]

/-- The recursion of the carried windows' contents, one step at a time. -/
theorem outsAt0_at_zero (c : Dev nD) (hn : 0 < cfg0.N) :
    outsAt0 (F := Ideal) (V0 m ρ) c 0 hn
      = (k0_pay4 (iblk0 (V0 m ρ) c 0 ⟨0, hn⟩) (iblk0 (V0 m ρ) c 1 ⟨0, hn⟩), k0_pay5 (iblk0 (V0 m ρ) c 0 ⟨0, hn⟩) (iblk0 (V0 m ρ) c 1 ⟨0, hn⟩)) := rfl
theorem outsAt0_at_succ (c : Dev nD) (n : ℕ) (hn : n + 1 < cfg0.N) :
    outsAt0 (F := Ideal) (V0 m ρ) c (n + 1) hn
      = (k0_pay8 (iblk0 (V0 m ρ) c 0 ⟨n + 1, hn⟩) (iblk0 (V0 m ρ) c 1 ⟨n + 1, hn⟩) (outsAt0 (V0 m ρ) c n (Nat.lt_of_succ_lt hn)).1,
         k0_pay9 (iblk0 (V0 m ρ) c 0 ⟨n + 1, hn⟩) (iblk0 (V0 m ρ) c 1 ⟨n + 1, hn⟩) (outsAt0 (V0 m ρ) c n (Nat.lt_of_succ_lt hn)).1
           (outsAt0 (V0 m ρ) c n (Nat.lt_of_succ_lt hn)).2) := rfl

/-- Reading any array through the result window's block at point `t`. -/
theorem read_blk1_3 (t : Fin cfg1.N) (H : S16384x512.Idx → Elt Ideal .f32) (y : S512x512.Idx) :
    ((cfg1.win 3).blk t).view.read (Elt Ideal) H y = H (((cfg1.win 3).blk t).view.emb y) := rfl

/-- After point `n` the two carried windows hold, on every one of their 8 rows, the online maximum and the online
    rescaled sum over the first n+1 tiles. -/
theorem carried (c : Dev nD) : ∀ (n : ℕ) (hn : n < cfg0.N) (q : Fin 8) (j : Fin 512),
    (outsAt0 (V0 m ρ) c n hn).1 (ix2 q j) = runMax (scN (xA m c) (sA m c) j) 512 n
    ∧ (outsAt0 (V0 m ρ) c n hn).2 (ix2 q j) = runSum (scN (xA m c) (sA m c) j) 512 n
  | 0, hn, q, j => by
    rw [outsAt0_at_zero]
    constructor
    · dsimp only
      rw [k0_pay4_apply, tile_max]; rfl
    · dsimp only
      rw [k0_pay5_apply, tile_sum]; rfl
  | n + 1, hn, q, j => by
    have ih := carried c n (Nat.lt_of_succ_lt hn) 0 j
    rw [outsAt0_at_succ]
    constructor
    · dsimp only
      rw [k0_pay8_apply, k0_pay7_apply, tile_max, ih.1]; rfl
    · dsimp only
      rw [k0_pay9_apply, k0_pay7_apply, tile_max, tile_sum, ih.1, ih.2]; rfl

/-- With every input a real number, the result array after the run is the specification. -/
theorem final (hx : ∀ c i, ∃ a : ℝ, xA m c i = (a : EReal)) (hs : ∀ c i, ∃ a : ℝ, sA m c i = (a : EReal)) (c : Dev nD) :
    (dat1 (V1 m ρ) c).arrAt 3 cfg1.N = G (xA m c) (sA m c) := by
  refine (dat1 (V1 m ρ) c).arrAt_eq_of_cover 3 _ (fun t _ => ?_) cover1_3
  rw [flushed1_3]
  funext y
  obtain ⟨p, j, rfl⟩ : ∃ (p : Fin 512) (j : Fin 512), y = ix2 p j := ⟨y 0, y 1, eq_ix2 y⟩
  rw [read_blk1_3]
  obtain ⟨b0, b1⟩ := blk1_3_emb t (ix2 p j)
  have hi : ((cfg1.win 3).blk t).view.emb (ix2 p j) = ix2 ⟨512 * t.val + p.val, tile_lt t p⟩ j :=
    funext fun a => Fin.ext (by
      match a with
      | ⟨0, _⟩ => exact b0
      | ⟨1, _⟩ => exact b1)
  rw [hi, G_ix2, k1_pay1_apply, tile_score m ρ c t p j (tile_lt t p), (carried m ρ c 31 last_lt 0 j).1, (carried m ρ c 31 last_lt 0 j).2,
    ← colMax_eq, ← colSum_eq (hx c) (hs c)]
  rfl

/-- The run, read: from a memory whose inputs are real numbers the result array ends at the specification of the
    launched inputs, which end unchanged. -/
theorem run (hx : ∀ c i, ∃ a : ℝ, xA m c i = (a : EReal)) (hs : ∀ c i, ∃ a : ℝ, sA m c i = (a : EReal)) :
    θ_run defs (onTc (τ := τ) (main (F := Ideal))) ⟨m, fun _ => 0, ρ⟩ (fun r => ∀ c : Dev nD,
      r.2.mem ((c.tc : Thread nD τ).loc main_v1) = G (xA m c) (sA m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m ρ hx hs c), (h c).2⟩) (run_main m ρ)

end Cert.KernelIdeal.Hand
end
-- ==== Proof.RefSide.lean ====
import proofs.«146708_g52493090291789_cont_8to1_c_1103_2_alg».proof.Defs
import proofs.«146708_g52493090291789_cont_8to1_c_1103_2_alg».proof.Proof.Gen.ReferenceIdeal.Run
import proofs.«146708_g52493090291789_cont_8to1_c_1103_2_alg».proof.Proof.Gen.ReferenceIdeal.Read
import proofs.«146708_g52493090291789_cont_8to1_c_1103_2_alg».proof.Proof.Spec
import Idealize.ShloMosaic.PureOps.Reduce
import Idealize.ShloMosaic.PureOps.Ideal.Laws
import Idealize.ShloMosaic.Lib.ValueIdx

/-
  The reference program computes the specification.

  Read one stage at a time, at an index split into its row r and its column j: the squared norms are the
  sums over the 256 features (a reduce-add from the constant 0 is 0 + Σ), the matrix product of x with the
  transposed samples at (r, j) is Σ_k x(r,k)·s(j,k), the clamp at zero is max(·, 0), the power with exponent
  one half is the square root on the non-negative extended reals, minus (1000 · y) is (−1000) · y, the running
  maximum down a column is a fold of max from −∞ (and max(−∞, M) = M), and the last stages are the
  exponential of the score less the maximum, its sum down the column, and their quotient.
-/

noncomputable section

namespace Cert.RefSide

open Cert.ReferenceIdeal Cert.ReferenceIdeal.Gen Cert.ReferenceIdeal.Read Idealize.ShloMosaic Idealize.ShloMosaic.ValueIdx
open Cert.Spec

/-! ## The float words of the program as extended reals -/

/-- The word 0x3F000000 denotes one half. -/
theorem half_word : Ideal.ofBits .f32 0x3F000000#32 = ((1 / 2 : ℝ) : EReal) := by
  simp [Ideal.ofBits, Ideal.ieee, -EReal.coe_mul]; norm_num

/-- The word 0x447A0000 denotes one thousand. -/
theorem thousand_word : Ideal.ofBits .f32 0x447A0000#32 = ((1000 : ℝ) : EReal) := by
  simp [Ideal.ofBits, Ideal.ieee, -EReal.coe_mul]; norm_num

/-- The word 0xFF800000 denotes −∞. -/
theorem neg_inf_word : Ideal.ofBits .f32 0xFF800000#32 = (⊥ : EReal) := by
  simp [Ideal.ofBits, Ideal.ieee]

/-! ## The power one half is the square root, on the non-negative extended reals -/

theorem pow_half_eq_sqrt (d : EReal) (hd : 0 ≤ d) : Ideal.pow d ((1 / 2 : ℝ) : EReal) = Ideal.sqrt d := by
  induction d using EReal.rec with
  | bot => exact absurd hd (by simp)
  | top =>
    rw [Ideal.pow_top, Ideal.sqrt_top, if_pos]
    exact_mod_cast (by norm_num : (0 : ℝ) < 1 / 2)
  | coe r =>
    have hr : 0 ≤ r := by exact_mod_cast hd
    rw [Ideal.pow_coe_coe, Ideal.sqrt_coe, if_neg (not_lt.mpr hr), Real.sqrt_eq_rpow]
    rfl

/-- Minus (1000 · y) is (−1000) · y. -/
theorem neg_thousand_mul (y : EReal) : -(((1000 : ℝ) : EReal) * y) = ((-1000 : ℝ) : EReal) * y := by
  rw [← neg_mul, ← EReal.coe_neg]

/-! ## The index maps of the layout stages, at an index given by its coordinates -/

theorem idx_v1 (r : Fin 16384) (k : Fin 256) : idx_main_v1 (ix1 r) k = ix2 r k :=
  funext fun a => Fin.ext (by match a with | ⟨0, _⟩ => rfl | ⟨1, _⟩ => rfl)
theorem idx_v4 (j : Fin 512) (k : Fin 256) : idx_main_v4 (ix1 j) k = ix2 j k :=
  funext fun a => Fin.ext (by match a with | ⟨0, _⟩ => rfl | ⟨1, _⟩ => rfl)
theorem idx_v2_v10 (r : Fin 16384) (j : Fin 512) : idx_main_v2 (idx_main_v10 (ix2 r j)) = ix1 r :=
  funext fun a => Fin.ext (by match a with | ⟨0, _⟩ => rfl)
theorem idx_v5_v12 (r : Fin 16384) (j : Fin 512) : idx_main_v5 (idx_main_v12 (ix2 r j)) = ix1 j :=
  funext fun a => Fin.ext (by match a with | ⟨0, _⟩ => rfl)
theorem idx_v24_v25 (r : Fin 16384) (j : Fin 512) : idx_main_v24 (idx_main_v25 (ix2 r j)) = ix1 j :=
  funext fun a => Fin.ext (by match a with | ⟨0, _⟩ => rfl)
theorem idx_v29_v30 (r : Fin 16384) (j : Fin 512) : idx_main_v29 (idx_main_v30 (ix2 r j)) = ix1 j :=
  funext fun a => Fin.ext (by match a with | ⟨0, _⟩ => rfl)
theorem lidx_v7 (r : Fin 16384) (j : Fin 512) (k : Fin 256) : lidx_main_v7 (ix2 r j) k = ix2 r k :=
  funext fun a => Fin.ext (by match a with | ⟨0, _⟩ => rfl | ⟨1, _⟩ => rfl)
theorem idx_v6_ridx_v7 (r : Fin 16384) (j : Fin 512) (k : Fin 256) : idx_main_v6 (ridx_main_v7 (ix2 r j) k) = ix2 j k :=
  funext fun a => Fin.ext (by match a with | ⟨0, _⟩ => rfl | ⟨1, _⟩ => rfl)
theorem idx_v28 (j : Fin 512) (k : Fin 16384) : idx_main_v28 (ix1 j) k = ix2 k j :=
  funext fun a => Fin.ext (by match a with | ⟨0, _⟩ => rfl | ⟨1, _⟩ => rfl)

/-! ## The stages, one at a time -/

variable (x : FVec Ideal S16384x256 .f32) (s : FVec Ideal S512x256 .f32)

/-- The row sums of squares of x. -/
theorem v1_at (r : Fin 16384) : val_main_v1 (F := Ideal) x (ix1 r) = xsq x r := by
  rw [val_main_v1_apply, val_main_cst_apply, Ideal.ofBits_def, Ideal.ofBits_zero_f32, zero_add]
  unfold xsq
  refine Finset.sum_congr rfl fun k _ => ?_
  rw [val_main_v0_apply, idx_v1, Ideal.mulf_def]

/-- The row sums of squares of the samples. -/
theorem v4_at (j : Fin 512) : val_main_v4 (F := Ideal) s (ix1 j) = ssq s j := by
  rw [val_main_v4_apply, val_main_cst_0_apply, Ideal.ofBits_def, Ideal.ofBits_zero_f32, zero_add]
  unfold ssq
  refine Finset.sum_congr rfl fun k _ => ?_
  rw [val_main_v3_apply, idx_v4, Ideal.mulf_def]

/-- The product of x with the transposed samples is the inner product of a row with a sample. -/
theorem v7_at (r : Fin 16384) (j : Fin 512) : val_main_v7 (F := Ideal) x s (ix2 r j) = dot x s r j := by
  rw [val_main_v7_apply]
  unfold dot
  refine Finset.sum_congr rfl fun k _ => ?_
  rw [val_main_v6_apply, lidx_v7, idx_v6_ridx_v7]

/-- The clamped squared distance. -/
theorem v15_at (r : Fin 16384) (j : Fin 512) : val_main_v15 (F := Ideal) x s (ix2 r j) = d2 x s r j := by
  rw [val_main_v15_apply, val_main_v13_apply, val_main_v11_apply, val_main_v10_apply, val_main_v2_apply, idx_v2_v10,
    v1_at, val_main_v9_apply, val_main_v8_apply, val_main_cst_1_apply, v7_at, val_main_v12_apply, val_main_v5_apply,
    idx_v5_v12, v4_at, val_main_v14_apply, val_main_cst_2_apply]
  simp only [Ideal.ofBits_def, Ideal.addf_def, Ideal.subf_def, Ideal.mulf_def, Ideal.maximumf_def, Ideal.ofBits_zero_f32]
  rfl

/-- The distance: the power one half of the clamped squared distance is its square root. -/
theorem v17_at (r : Fin 16384) (j : Fin 512) :
    val_main_v17 (F := Ideal) x s (ix2 r j) = Ideal.sqrt (d2 x s r j) := by
  rw [val_main_v17_apply, v15_at, val_main_v16_apply, val_main_cst_3_apply, Ideal.ofBits_def, Ideal.hostPowf_def,
    half_word]
  exact pow_half_eq_sqrt _ (le_max_right _ _)

/-- The score: minus a thousand times the distance. -/
theorem v20_at (r : Fin 16384) (j : Fin 512) : val_main_v20 (F := Ideal) x s (ix2 r j) = score x s r j := by
  rw [val_main_v20_apply, val_main_v19_apply, val_main_v18_apply, val_main_cst_4_apply, v17_at, Ideal.ofBits_def,
    Ideal.hostNegf_def, Ideal.negf_def, Ideal.mulf_def, thousand_word, neg_thousand_mul]
  rfl

/-- A column index with a row put back on the reduced axis is that (row, column). -/
theorem lift_col (h : S16384x512.Reduces [0] S512) (j : Fin 512) (k : Fin (S16384x512.size 0)) :
    h.lift (ix1 j) k = ix2 (⟨k.val, k.isLt⟩ : Fin 16384) j := by
  funext c; apply Fin.ext
  match c with
  | ⟨0, _⟩ => rfl
  | ⟨1, _⟩ => rfl

/-- The reduce with a maximum body down a column, from −∞, is the fold of max over the rows of the scores. -/
theorem v21_at (j : Fin 512) : val_main_v21 (F := Ideal) x s (ix1 j) = colMax x s j := by
  have h : S16384x512.Reduces [0] S512 := by decide
  unfold val_main_v21
  rw [Host.reduce_eq_fold_single FloatOps.maximumf _ _ reducesTo_S16384x512_S512_d0 h h_S_, val_main_cst_5_apply,
    Ideal.ofBits_def, neg_inf_word]
  have hf : (val_main_v20 (F := Ideal) x s ∘ h.lift (ix1 j)) = fun r : Fin 16384 => score x s r j :=
    funext fun k => by
      show val_main_v20 (F := Ideal) x s (h.lift (ix1 j) k) = _
      rw [lift_col, v20_at]
      rfl
  rw [hf]
  rfl

/-- The maximum with −∞ changes nothing. -/
theorem v23_at (j : Fin 512) : val_main_v23 (F := Ideal) x s (ix1 j) = colMax x s j := by
  rw [val_main_v23_apply, val_main_v22_apply, val_main_cst_6_apply, v21_at, Ideal.ofBits_def, Ideal.maximumf_def,
    neg_inf_word]
  exact max_eq_right bot_le

/-- The exponential of the score less the column's maximum. -/
theorem v27_at (r : Fin 16384) (j : Fin 512) :
    val_main_v27 (F := Ideal) x s (ix2 r j) = Ideal.exp (score x s r j - colMax x s j) := by
  rw [val_main_v27_apply, val_main_v26_apply, v20_at, val_main_v25_apply, val_main_v24_apply, idx_v24_v25, v23_at,
    Ideal.hostUnary_exp_def, Ideal.subf_def]

/-- The sum of those exponentials down a column. -/
theorem v28_at (j : Fin 512) : val_main_v28 (F := Ideal) x s (ix1 j) = colSum x s j := by
  rw [val_main_v28_apply, val_main_cst_7_apply, Ideal.ofBits_def, Ideal.ofBits_zero_f32, zero_add]
  unfold colSum
  refine Finset.sum_congr rfl fun k _ => ?_
  rw [idx_v28, v27_at]

/-- The reference's result is the specification. -/
theorem ref_is_G : val_main_v31 (F := Ideal) x s = Cert.Spec.G x s := by
  funext i
  obtain ⟨r, j, rfl⟩ : ∃ (r : Fin 16384) (j : Fin 512), i = ix2 r j := ⟨i 0, i 1, eq_ix2 i⟩
  rw [val_main_v31_apply, v27_at, val_main_v30_apply, val_main_v29_apply, idx_v29_v30, v28_at, Ideal.hostDivf_def]
  rfl

end Cert.RefSide

end
-- ==== Proof.Finite.lean ====
import proofs.«146708_g52493090291789_cont_8to1_c_1103_2_alg».proof.Defs
import proofs.«146708_g52493090291789_cont_8to1_c_1103_2_alg».proof.Proof.Gen.Pre_finite_inputs
import Idealize.ShloMosaic.Lib.ReduceAll
import Idealize.ShloMosaic.Lib.ValueIdx

/-
  From the precondition to the entries of both argument arrays being real numbers.

  The precondition is the conjunction, over both arrays, of "every entry's absolute value is below +∞".
  The conjunction of two one-bit words is 1 exactly when both are; an and-reduction over every axis that is 1
  had a 1 at every entry; and an extended real whose absolute value max(v, −v) is below +∞ is neither −∞ nor +∞,
  so it is a real number.
-/

noncomputable section

namespace Cert.Finite

open Idealize.ShloMosaic Cert.Pre_finite_inputs Cert.Pre_finite_inputs.Gen

/-- The scalar shape has one index. -/
instance : Subsingleton S_.Idx := ⟨fun a b => funext fun d => d.elim0⟩

/-- The word 0x7F800000 denotes +∞. -/
theorem pos_inf_word : Ideal.ofBits .f32 0x7F800000#32 = (⊤ : EReal) := by
  simp [Ideal.ofBits, Ideal.ieee]

/-- An extended real whose absolute value compares below +∞ is a real number. -/
theorem real_of_abs_lt (v : EReal)
    (h : Ideal.cmp .olt (max v (-v)) (Ideal.ofBits .f32 0x7F800000#32) = 1#1) : ∃ a : ℝ, v = (a : EReal) := by
  rw [pos_inf_word] at h
  induction v using EReal.rec with
  | bot => simp [Ideal.cmp] at h
  | top => simp [Ideal.cmp] at h
  | coe a => exact ⟨a, rfl⟩

/-- Under the precondition every entry of both argument arrays is a real number. -/
theorem finite_of_pre (x : FVec Ideal S16384x256 .f32) (s : FVec Ideal S512x256 .f32)
    (h : Cert.Pre_finite_inputs.fn (F := Ideal) x s = fun _ => 1#1) :
    (∀ i, ∃ a : ℝ, x i = (a : EReal)) ∧ (∀ i, ∃ a : ℝ, s i = (a : EReal)) := by
  have h0 := congrFun h ValueIdx.ix0
  dsimp only [Cert.Pre_finite_inputs.fn] at h0
  obtain ⟨hx, hs⟩ := IntOp.andi_eq_one.1 h0
  refine ⟨fun i => ?_, fun i => ?_⟩
  · exact real_of_abs_lt (x i) (Host.reduce_andi_all _ _ _ _ _ hx i)
  · exact real_of_abs_lt (s i) (Host.reduce_andi_all _ _ _ _ _ hs i)

end Cert.Finite

end
-- ==== Proof.lean ====
/-
  The certificate: a two-pass column softmax of scaled pairwise distances, computed by two kernels, against its plain
  reference.

  Both programs compute, for inputs x : [16384, 256] and samples s : [512, 256],
      score r j = −1000 · sqrt (max (|x_r|² − 2 ⟨x_r, s_j⟩ + |s_j|²) 0)   and   out r j = exp (score r j − M_j) / L_j
  with M_j the maximum of column j of the scores and L_j the sum down that column of exp (score − M_j).
  The kernel's first pass walks the rows 512 at a time; per tile it stores the scores and merges the tile's column
  maximum and column sum of exponentials into a running maximum and a running sum rescaled to the new maximum
  (exp (a − M) · exp (M − M') = exp (a − M') on the reals: this is where the inputs' finiteness is used). Its second pass
  normalises each tile. The reference takes the square root as a power one half (the same on the nonnegative extended
  reals), scales by +1000 and negates, and reduces over all rows at once.

  The frames and the kernel's run are proved for both float instances from the two regions' bodies (KBits*/KIdeal*:
  R0, R1, Run); Blocks reads the regions' write-backs back; KPayloads reads the bodies' arithmetic at an entry;
  LibOnlineSoftmax is the tile-by-tile maximum and sum; Spec / SpecOnline the specification; KIdealValue joins them;
  RefSide reads the reference's run as the specification; Finite turns the precondition into "every input is real".
-/
import proofs.«146708_g52493090291789_cont_8to1_c_1103_2_alg».proof.Defs
import proofs.«146708_g52493090291789_cont_8to1_c_1103_2_alg».proof.Proof.Gen.Kernel
import proofs.«146708_g52493090291789_cont_8to1_c_1103_2_alg».proof.Proof.Gen.KernelIdeal
import proofs.«146708_g52493090291789_cont_8to1_c_1103_2_alg».proof.Proof.Gen.ReferenceIdeal
import proofs.«146708_g52493090291789_cont_8to1_c_1103_2_alg».proof.Proof.Gen.Pre_finite_inputs
import proofs.«146708_g52493090291789_cont_8to1_c_1103_2_alg».proof.Proof.KBitsRun
import proofs.«146708_g52493090291789_cont_8to1_c_1103_2_alg».proof.Proof.KIdealValue
import proofs.«146708_g52493090291789_cont_8to1_c_1103_2_alg».proof.Proof.RefSide
import proofs.«146708_g52493090291789_cont_8to1_c_1103_2_alg».proof.Proof.Finite
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on real-valued inputs both programs end with the specification of those inputs. -/
theorem algebraic : Cert.algebraic_KernelIdeal_ReferenceIdeal := by
  intro m ρ m' ρ' hpre hagree
  have hfin := fun c => Cert.Finite.finite_of_pre _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ (fun c => (hfin c).1) (fun c => (hfin c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.RefSide.ref_is_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
